-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192x1 : Shape := ⟨2, ![8192, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S8192 : Shape := ⟨1, ![8192]⟩

abbrev nBuf : Space → Nat
  | .hbm => 41
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S8192x128, .bf16⟩
  | .hbm, ⟨24, _⟩ => ⟨S8192x1, .f32⟩
  | .hbm, ⟨25, _⟩ => ⟨S8192, .f32⟩
  | .hbm, ⟨26, _⟩ => ⟨S4096x128, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v11) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8192, .i32⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_2 : Ref sig .tc := ⟨.hbm, 83, rfl⟩
abbrev main_v25 : Ref sig .tc := ⟨.hbm, 84, rfl⟩
abbrev main_v26 : Ref sig .tc := ⟨.hbm, 85, rfl⟩
abbrev main_cst_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_4 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_5 : Ref sig .tc := ⟨.hbm, 96, rfl⟩
abbrev main_v35 : Ref sig .tc := ⟨.hbm, 97, rfl⟩
abbrev main_cst_6 : Ref sig .tc := ⟨.hbm, 98, rfl⟩
abbrev main_v36 : Ref sig .tc := ⟨.hbm, 99, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KBody.lean ====
import proofs.«103674_j78288663871843_2_alg».proof.Proof.Gen.Kernel.Launch
import proofs.«103674_j78288663871843_2_alg».proof.Proof.Gen.Kernel.Skeleton
import proofs.«103674_j78288663871843_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The body's four conditions, as the kernel computes them from the grid point

The body zeroes its accumulator when the column tile is the first (`c1`), adds the tile's row sums with the
diagonal entry masked out when the tile meets the diagonal (`c2`), adds them unmasked otherwise (`c3`, the
negation of `c2`), and copies the accumulator to the output block when the column tile is the last (`c4`). -/

abbrev c1 (i : grid0.Coords) : Prop := (Scalar.cmpi .ne (Scalar.extui (Scalar.cmpi .eq (BitVec.ofNat 32 (i 1).val) 0#32)) 0#32) = 1#1
abbrev w18 (i : grid0.Coords) : BitVec 1 :=
  Scalar.andi (Scalar.cmpi .slt (Scalar.muli (BitVec.ofNat 32 (i 1).val) 1024#32) (Scalar.addi (Scalar.muli (BitVec.ofNat 32 (i 0).val) 1024#32) 1024#32))
    (Scalar.cmpi .slt (Scalar.muli (BitVec.ofNat 32 (i 0).val) 1024#32) (Scalar.addi (Scalar.muli (BitVec.ofNat 32 (i 1).val) 1024#32) 1024#32))
abbrev c2 (i : grid0.Coords) : Prop := (Scalar.cmpi .ne (Scalar.extui (w18 i)) 0#32) = 1#1
abbrev c3 (i : grid0.Coords) : Prop := (Scalar.cmpi .ne (Scalar.extui (Scalar.xori (w18 i) 1#1)) 0#32) = 1#1
abbrev c4 (i : grid0.Coords) : Prop := k0_cond4 i = 1#1

/-- The third condition is the second one negated: the same bit, flipped. -/
theorem c3_iff (i : grid0.Coords) : c3 i ↔ ¬ c2 i := by
  have key : ∀ v : BitVec 1, ((Scalar.cmpi .ne (Scalar.extui (Scalar.xori v 1#1)) 0#32) = 1#1) ↔ ¬ ((Scalar.cmpi .ne (Scalar.extui v) 0#32) = 1#1) := by decide
  exact key (w18 i)

/-- What one grid point makes of the accumulator `s`, given the row block `x0` and the column block `x1`:
    zero it at the first column tile, then add the tile's (masked or plain) row sums. -/
def accStep (i : grid0.Coords) (x0 x1 : Vec F S1024x128 .bf16) (s : Vec F S1024x1 .f32) : Vec F S1024x1 .f32 :=
  let s1 : Vec F S1024x1 .f32 := if c1 i then k0_pay1 (F := F) else s
  let s2 : Vec F S1024x1 .f32 := if c2 i then k0_pay3 i x0 x1 s1 else s1
  if c3 i then k0_pay4 x0 x1 s2 else s2

/-- What it makes of the output block `o`: the new accumulator at the last column tile, untouched elsewhere. -/
def outStep (i : grid0.Coords) (x0 x1 : Vec F S1024x128 .bf16) (s o : Vec F S1024x1 .f32) : Vec F S1024x1 .f32 :=
  if c4 i then accStep i x0 x1 s else o

/-- At the first column tile the accumulator's earlier contents do not matter. -/
theorem accStep_of_c1 (i : grid0.Coords) (h : c1 i) (x0 x1 : Vec F S1024x128 .bf16) (s s' : Vec F S1024x1 .f32) :
    accStep i x0 x1 s = accStep i x0 x1 s' := by
  unfold accStep; simp only [if_pos h]

theorem hz2 : (![0, 0] : Fin 2 → ℕ) = fun _ => 0 := by funext a; fin_cases a <;> rfl

/-- A whole-buffer load after a newest whole-buffer store reads that store's values, whatever was stored before. -/
theorem readCov_newest {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

set_option maxHeartbeats 8000000 in
/-- THE BODY AT ANY GRID POINT, on whole buffers: from the row block, the column block, the output buffer at `o` and the
    accumulator at `s`, it runs to the blocks unchanged, the output buffer at `outStep` and the accumulator at `accStep`
    — by cases on the three independent conditions, each case run symbolically. -/
theorem body_run (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole)
    (x0 x1 : Vec F S1024x128 .bf16) (o s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare o ∗ owns (c : Thread nD τ) arg5 fullShare s
        ∗ (iprop(owns (c : Thread nD τ) arg2 fullShare x0 ∗ owns (c : Thread nD τ) arg3 fullShare x1 ∗ owns (c : Thread nD τ) arg4 fullShare (outStep i x0 x1 s o) ∗ owns (c : Thread nD τ) arg5 fullShare (accStep i x0 x1 s)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  by_cases h1 : c1 i <;> by_cases h2 : c2 i <;> by_cases h4 : c4 i
  all_goals
    first
    | have h3 : ¬ c3 i := fun h => ((c3_iff i).mp h) h2
    | have h3 : c3 i := (c3_iff i).mpr h2
  all_goals
    first | have e1 : c1 i = True := eq_true h1 | have e1 : c1 i = False := eq_false h1
    first | have e2 : c2 i = True := eq_true h2 | have e2 : c2 i = False := eq_false h2
    first | have e3 : c3 i = True := eq_true h3 | have e3 : c3 i = False := eq_false h3
    first | have e4 : c4 i = True := eq_true h4 | have e4 : c4 i = False := eq_false h4
    sl_exec (disch := first | exact h1 | exact h2 | exact h3 | exact h4)
    sl_step
    iapply Hk
    isplitl [H0]
    · iexists _; isplitr; · ipureintro; exact hf0
      iexact H0
    isplitl [H1]
    · iexists _; isplitr; · ipureintro; exact hf1
      iexact H1
    isplitl [H4]
    · iexists _; isplitr; swap; · iexact H4
      ipureintro
      first
      | (simp only [outStep, e4, if_false]; exact hf4)
      | (try sl_unfold_words
         rw [View.read_writes_eq_canon _ _ _ (fun y => ⟨_, List.mem_cons_self, View.mem_set_unit_zero hz2 Gen.inb_S1024x1_S1024x1_0_0 y⟩), View.canon_cons_unit_zero hz2]
         simp only [readCov_newest (S := S1024x1) _ hz2, View.readAt_eq_ld, harg2.read_unread, harg3.read_unread, harg5.read_unread, View.ld_unit_zero (S := S1024x1) hz2, View.ld_unit_zero (S := S1024x128) hz2,
           outStep, accStep, e1, e2, e3, e4, if_true, if_false])
    iexists _; isplitr; swap; · iexact H5
    ipureintro
    try sl_unfold_words
    rw [View.read_writes_eq_canon _ _ _ (fun y => ⟨_, List.mem_cons_self, View.mem_set_unit_zero hz2 Gen.inb_S1024x1_S1024x1_0_0 y⟩), View.canon_cons_unit_zero hz2]
    simp only [readCov_newest (S := S1024x1) _ hz2, View.readAt_eq_ld, harg2.read_unread, harg3.read_unread, harg5.read_unread, View.ld_unit_zero (S := S1024x1) hz2, View.ld_unit_zero (S := S1024x128) hz2,
      accStep, e1, e2, e3, if_true, if_false]

end Cert.Kernel.Hand

end
-- ==== Proof.KData.lean ====
import proofs.«103674_j78288663871843_2_alg».proof.Proof.Gen.Kernel.Launch
import proofs.«103674_j78288663871843_2_alg».proof.Proof.Gen.Kernel.Skeleton
import proofs.«103674_j78288663871843_2_alg».proof.Proof.Gen.Kernel.Points
import proofs.«103674_j78288663871843_2_alg».proof.Proof.KBody
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- Core `c`'s unscoped buffers at launch, -/
abbrev V0 (c : Dev nD) : Valuation τ sig (Elt F) := fun b => m (c, b)
/-- after the first row-norm call, -/
abbrev V1 (c : Dev nD) : Valuation τ sig (Elt F) := StableHlo.after hostOps0 (V0 m c)
/-- after the first normalisation, -/
abbrev V2 (c : Dev nD) : Valuation τ sig (Elt F) := StableHlo.after hostOps0_1 (V1 m c)
/-- after the second row-norm call, -/
abbrev V3 (c : Dev nD) : Valuation τ sig (Elt F) := StableHlo.after hostOps0_2 (V2 m c)
/-- and when the region is entered: both halves normalised, joined and narrowed. -/
abbrev V4 (c : Dev nD) : Valuation τ sig (Elt F) := StableHlo.after hostOps0_3 (V3 m c)
/-- The same read at a TensorCore reference. -/
abbrev V (c : Dev nD) (b : Ref sig .tc) : Buf (Elt F) ((c : Thread nD τ).loc b) := V4 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulator, point by point -/

/-- What the accumulator holds after the body at position `n`: one step from what the position before left
    (at the first position, where the step zeroes it, from anything). -/
def accAt (c : Dev nD) : (n : ℕ) → n < cfg0.N → Vec F S1024x1 .f32
  | 0, hn => accStep (grid0.coords ⟨0, hn⟩) (iblk m c 0 ⟨0, hn⟩) (iblk m c 1 ⟨0, hn⟩) (k0_pay1 (F := F))
  | n + 1, hn => accStep (grid0.coords ⟨n + 1, hn⟩) (iblk m c 0 ⟨n + 1, hn⟩) (iblk m c 1 ⟨n + 1, hn⟩) (accAt c n (Nat.lt_of_succ_lt hn))

theorem accAt_zero (c : Dev nD) (t : Fin cfg0.N) (hz : t.val = 0) :
    accAt m c t.val t.isLt = accStep (grid0.coords t) (iblk m c 0 t) (iblk m c 1 t) (k0_pay1 (F := F)) := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = accStep (grid0.coords t) (iblk m c 0 t) (iblk m c 1 t)
      (accAt m c (t.val - 1) (Nat.lt_of_le_of_lt (Nat.sub_le _ _) t.isLt)) := by
  obtain ⟨n, hn⟩ := t
  cases n with
  | zero => exact absurd rfl hz
  | succ n => rfl

/-! ## The schedule's facts, decided over the 64 points -/

/-- The first point is in the first column tile. -/
theorem c1_of_zero : ∀ t : Fin cfg0.N, t.val = 0 → c1 (grid0.coords t) :=
  (by decide +kernel : ∀ t : Fin grid0.N, t.val = 0 → c1 (grid0.coords t))
/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last column tile the output window is idle and not written back; -/
theorem idle2 : ∀ t : Fin cfg0.N, ¬ c4 (grid0.coords t) → cfg0.idle 2 (grid0.coords t) = true := by decide +kernel
theorem noFlush2 : ∀ t : Fin cfg0.N, ¬ c4 (grid0.coords t) → (cfg0.win 2).flush t = false := by decide +kernel
/-- at the last column tile it is live. -/
theorem live2 : ∀ t : Fin cfg0.N, c4 (grid0.coords t) → cfg0.idle 2 (grid0.coords t) = false := by decide +kernel

/-! ## The staging memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a scoped buffer of the kernel's own, passed beside the windows. -/
abbrev scM : Memref sig .tc .vmem S1024x1 .f32 := Memref.whole cc0_scratch0

/-! ## The region's invariant -/

/-- Before the first point the accumulator holds anything; after point `n` it holds `accAt n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped buffers no window stages are the accumulator alone, at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The pipeline's proof data -/

/-- The arrays as the region finds them; after the body each input's buffer at its block and the output's at the
    accumulator (consulted only at the last column tile, where the body copies it there); the two input windows
    read one array, each at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem outStep_pos {i : grid0.Coords} (h : c4 i) (x0 x1 : Vec F S1024x128 .bf16) (s o : Vec F S1024x1 .f32) :
    outStep i x0 x1 s o = accStep i x0 x1 s := if_pos h
theorem outStep_neg {i : grid0.Coords} (h : ¬ c4 i) (x0 x1 : Vec F S1024x128 .bf16) (s o : Vec F S1024x1 .f32) :
    outStep i x0 x1 s o = o := if_neg h

set_option maxHeartbeats 4000000 in
/-- The body at any point: the inputs' buffers hold their blocks, the accumulator what the point before left
    (anything at the first point, where the body zeroes it); the body's run leaves the accumulator one step on
    and, at the last column tile, the output buffer at the accumulator; elsewhere the output buffer is handed back
    as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases hz : t.val = 0
  · have hacc : ∀ d, accStep (grid0.coords t) (iblk m c 0 t) (iblk m c 1 t) d = accAt m c t.val t.isLt := fun d =>
      (accStep_of_c1 _ (c1_of_zero t hz) _ _ d _).trans (accAt_zero m c t hz).symm
    rw [Phi_castSucc, PhiS_zero m c _ _ hz, rest_eq]
    by_cases h4 : c4 (grid0.coords t)
    · rw [show (dats m 0 c).leavesExact 2 t = owns (c : Thread nD τ) (ms2 t) fullShare ((dats m 0 c).after 2 t) from by
        unfold Dat.leavesExact; rw [live2 t h4], after2]
      iintro ⟨⟨%ds, HS⟩, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ ds Set.univ _)
      isplitl [H0]; · iexact H0
      isplitl [H1]; · iexact H1
      isplitl [H2]; · iexact H2
      isplitl [HS]; · iexact HS
      rw [outStep_pos h4, hacc ds]
      iintro ⟨H0, H1, H2, HS⟩
      isplitl [HS]; · iexact HS
      isplitl [Ho]; · iexact Ho
      isplitl [H0]; · iexact H0
      isplitl [H1]; · iexact H1
      iexact H2
    · rw [Dat.leavesExact_idle (dats m 0 c) 2 t (idle2 t h4) (noFlush2 t h4)]
      iintro ⟨⟨%ds, HS⟩, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ ds Set.univ _)
      isplitl [H0]; · iexact H0
      isplitl [H1]; · iexact H1
      isplitl [H2]; · iexact H2
      isplitl [HS]; · iexact HS
      rw [outStep_neg h4, hacc ds]
      iintro ⟨H0, H1, H2, HS⟩
      isplitl [HS]; · iexact HS
      isplitl [Ho]; · iexact Ho
      isplitl [H0]; · iexact H0
      isplitl [H1]; · iexact H1
      iexists _; iexact H2
  · have hacc := (accAt_pos m c t hz).symm
    rw [Phi_castSucc, PhiS_pos m c _ _ hz]
    by_cases h4 : c4 (grid0.coords t)
    · rw [show (dats m 0 c).leavesExact 2 t = owns (c : Thread nD τ) (ms2 t) fullShare ((dats m 0 c).after 2 t) from by
        unfold Dat.leavesExact; rw [live2 t h4], after2]
      iintro ⟨HS, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [outStep_pos h4, hacc]
      iintro ⟨H0, H1, H2, HS⟩
      isplitl [HS]; · iexact HS
      isplitl [Ho]; · iexact Ho
      isplitl [H0]; · iexact H0
      isplitl [H1]; · iexact H1
      iexact H2
    · rw [Dat.leavesExact_idle (dats m 0 c) 2 t (idle2 t h4) (noFlush2 t h4)]
      iintro ⟨HS, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [outStep_neg h4, hacc]
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
import proofs.«103674_j78288663871843_2_alg».proof.Proof.Gen.Kernel.Launch
import proofs.«103674_j78288663871843_2_alg».proof.Proof.Gen.Kernel.Skeleton
import proofs.«103674_j78288663871843_2_alg».proof.Proof.Gen.Kernel.Points
import proofs.«103674_j78288663871843_2_alg».proof.Proof.KData
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After the region -/

/-- Core `c`'s unscoped buffers when the region is left: the output array at what the pipeline wrote back, -/
abbrev V5 (c : Dev nD) : Valuation τ sig (Elt F) :=
  Function.update (V4 m c) main_v12 ((dats m 0 c).arrAt 2 cfg0.N : Buf (Elt F) ((c : Thread nD τ).loc main_v12))
/-- and at the end of @main. -/
abbrev V6 (c : Dev nD) : Valuation τ sig (Elt F) := StableHlo.after hostOps1 (V5 m c)

/-! ## What the host stretches write -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev hostOps0_W : List (Ref sig .tc) := [main_call0_v0, main_call0_cst, main_call0_v1, main_call0_v2, main_v0]
abbrev hostOps0_1_W : List (Ref sig .tc) := [main_cst, main_v1, main_v2, main_v3, main_v4]
abbrev hostOps0_2_W : List (Ref sig .tc) := [main_call1_v0, main_call1_cst, main_call1_v1, main_call1_v2, main_v5]
abbrev hostOps0_3_W : List (Ref sig .tc) := [main_cst_0, main_v6, main_v7, main_v8, main_v9, main_v10, main_v11]
abbrev hostOps1_W : List (Ref sig .tc) := [main_v13, main_v14, main_cst_1, main_v15, main_cst_2, main_v16, main_v17, main_v18, main_v19, main_v20, main_v21, main_v22, main_cst_3, main_v23, main_cst_4, main_v24]

theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)

/-- A reference none of the stretches before the region writes holds its launch contents when the region is entered. -/
theorem V4_of (c : Dev nD) (r : Ref sig .tc) (h0 : r ∉ hostOps0_W) (h1 : r ∉ hostOps0_1_W) (h2 : r ∉ hostOps0_2_W) (h3 : r ∉ hostOps0_3_W) :
    V4 m c r = m ((c : Thread nD τ).loc r) :=
  (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- The region changes the output array alone. -/
theorem V5_of (c : Dev nD) (r : Ref sig .tc) (h : r ≠ main_v12) : V5 m c r = V4 m c r := by
  simp only [V5, Function.update_of_ne (StableHlo.devRef_ne_of_ne h : (Proc.devRef .tc r : DevRef τ sig) ≠ Proc.devRef .tc main_v12)]

theorem V5_out (c : Dev nD) : V5 m c main_v12 = (dats m 0 c).arrAt 2 cfg0.N := by
  simp only [V5, Function.update_self]

/-- Each argument reaches the end as launched. -/
theorem V6_arg0 (c : Dev nD) : V6 m c main_arg0 = m ((c : Thread nD τ).loc main_arg0) :=
  (StableHlo.after_of_writes_sub hostOps1 _ hostOps1_writes (by decide)).trans <|
    (V5_of m c main_arg0 (by decide)).trans (V4_of m c main_arg0 (by decide) (by decide) (by decide) (by decide))
theorem V6_arg1 (c : Dev nD) : V6 m c main_arg1 = m ((c : Thread nD τ).loc main_arg1) :=
  (StableHlo.after_of_writes_sub hostOps1 _ hostOps1_writes (by decide)).trans <|
    (V5_of m c main_arg1 (by decide)).trans (V4_of m c main_arg1 (by decide) (by decide) (by decide) (by decide))

/-! ## The launch: @main as segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def seg1 : HostSeg (Ix := Unit) (Name := ℕ) (U := UR sig nD τ) (Lvl := ℕ) (pcfgs (F := F)) defs₀ Variants.none L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) R
def seg2 : HostSeg (Ix := Unit) (Name := ℕ) (U := UR sig nD τ) (Lvl := ℕ) (pcfgs (F := F)) defs₀ Variants.none L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) R
def seg3 : HostSeg (Ix := Unit) (Name := ℕ) (U := UR sig nD τ) (Lvl := ℕ) (pcfgs (F := F)) defs₀ Variants.none L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) R
def seg5 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V5 m) R

/-! ## The region's arrays: one input array read through two windows, the output array -/

/-- The arrays behind the windows are the joined rows and the output, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v11) ↦{fullShare} W main_v11) ∗ (((c : Thread nD τ).loc main_v12) ↦{fullShare} W main_v12)) := by
  unfold Pipeline.arrBufs
  exact bigSep_eq_bigSepL_of_eq [main_v11, main_v12] (by decide) (by decide) _

/-- The pipeline's arrays: the joined rows at half a share to each input window, the output whole. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v11) ↦{fullShare.left} G 0) ∗ (((c : Thread nD τ).loc main_v11) ↦{fullShare.right} G 1)
          ∗ (((c : Thread nD τ).loc main_v12) ↦{fullShare} G 2)) := by
  unfold Dat.arrays
  rw [bigSep_W0, (arr_whole0 0).set_eq_univ, (arr_whole0 2).set_eq_univ]
  rfl

/-! ## The region -/

-- the library's lemmas are stated over `cfgs p` at the pinned configuration: unification may unfold plain definitions
set_option backward.isDefEq.respectTransparency.types false in
/-- THE REGION: entered from what the stretches before it left — the joined rows split between the two input windows,
    the output array whole, every other buffer bypassing —, left with the output array at what was written back. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m c) ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V4 m c) = unscopedBufs c (V m c) from (Pipeline.unscopedBufs_held c _).symm,
      Pipeline.unscopedBufs_split₀ cfgs 0 winFacts₀0.arr_unscoped c (V m c), arrBufs_eq, arrays_eq]
    iintro ⟨⟨⟨⟨H11, H12⟩, HZ⟩, HO⟩, -, -⟩
    ihave Hs := (pointsTo_share (PosShare.mem_left_op_right fullShare)).1 $$ H11
    icases Hs with ⟨Hl, Hr⟩
    imodintro
    isplitl [Hl Hr H12]
    · isplitl [Hl]; · iexact Hl
      isplitl [Hr]; · iexact Hr
      iexact H12
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by rw [show cfg0.N = 64 from N_0]; decide), rest_eq]
    iintro HS
    isplitr; · iempintro
    isplitr; · iempintro
    iexists _; iexact HS
  hexit c := by
    have hrest : (Pipeline.unscopedRest (Ix := Unit) (Name := ℕ) (U := UR sig nD τ) (Lvl := ℕ) spec0 c (fun b => V5 m c b) : sProp 𝕄)
        = Pipeline.unscopedRest spec0 c (V m c) := by
      unfold Pipeline.unscopedRest
      exact bigSep_congr fun b hb => by
        beta_reduce
        rw [V5_of m c b fun e => (Finset.mem_sdiff.mp hb).2 (e ▸ Finset.mem_image.mpr ⟨2, Finset.mem_univ _, rfl⟩)]
    rw [arrays_eq, show StableHlo.held (c : Thread nD τ) (Pipeline.ucRefs τ sig) (V5 m c) = unscopedBufs c (fun b => V5 m c b) from (Pipeline.unscopedBufs_held c _).symm,
      Pipeline.unscopedBufs_split₀ cfgs 0 winFacts₀0.arr_unscoped c (fun b => V5 m c b), arrBufs_eq, hrest]
    beta_reduce
    rw [V5_of m c main_v11 (by decide), V5_out, (dats m 0 c).arrAt_in 0 rfl, (dats m 0 c).arrAt_in 1 rfl]
    iintro ⟨⟨Hl, Hr, H12⟩, HO, -, HZ⟩
    ihave H11 := (pointsTo_share (PosShare.mem_left_op_right fullShare)).2 $$ [Hl Hr]
    · isplitl [Hl]; · iexact Hl
      iexact Hr
    imodintro
    isplitr [HO]
    · isplitl [H11 H12]
      · isplitl [H11]; · iexact H11
        iexact H12
      iexact HZ
    · unfold Pipeline.Dat.owesAt Pipeline.owesWithin
      icases HO with ⟨%W, -, HO⟩; iexists W; iexact HO

/-- @main as the list of its items. -/
abbrev segs : List (Seg (pcfgs (F := F)) adm (dats m) () defs₀ Variants.none L lv) :=
  [.host (seg0 m), .host (seg1 m), .host (seg2 m), .host (seg3 m), .region (reg0 m), .host (seg5 m)]

/-- The pipeline library's algebra is all of the certificate's. -/
abbrev EP : Emb (UR sig nD τ) (MT nD τ sig Unit (Elt F) ℕ (UR sig nD τ) ℕ) := emb₁
/-- The launch element: the staging cells and the pipeline's transfers. -/
def u₀ : UR sig nD τ := initOf (Pipeline.cells cfgs cellOf_inj) (Pipeline.launchToks cfgs cellOf_inj)

/-- The run's post: the result at what the last stretch computes from the region's output, the arguments as launched. -/
def QC : PUnit × MemSt nD τ sig (Elt F) → Prop := fun r => ∀ c : Dev nD,
  r.2.mem ((c : Thread nD τ).loc main_v24) = V6 m c main_v24
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- From any memory with zero counters every weakly fair execution of @main terminates, nothing faulting, with the result
    buffer at `V6` and the argument arrays unchanged. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c : Thread nD τ).loc main_v24) = V6 m c main_v24
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (V6 m c) s') $$ [Hh HSI]
      · isplitl [Hh] <;> iassumption
      icases Hr with ⟨%h, HSI⟩
      imodintro
      isplitr
      · ipureintro
        have h24 := h (Proc.devRef .tc main_v24) (Finset.mem_filter.mpr ⟨StableHlo.devRef_mem_tcRefs main_v24, by decide⟩)
        have h0 := h (Proc.devRef .tc main_arg0) (Finset.mem_filter.mpr ⟨StableHlo.devRef_mem_tcRefs main_arg0, by decide⟩)
        have h1 := h (Proc.devRef .tc main_arg1) (Finset.mem_filter.mpr ⟨StableHlo.devRef_mem_tcRefs main_arg1, by decide⟩)
        exact ⟨h24, h0.trans (V6_arg0 m c), h1.trans (V6_arg1 m c)⟩
      · iexact HSI)
    (hQ := fun _ h => h)

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.Kernel.Hand

end
-- ==== Proof.KIBody.lean ====
import proofs.«103674_j78288663871843_2_alg».proof.Proof.Gen.KernelIdeal.Launch
import proofs.«103674_j78288663871843_2_alg».proof.Proof.Gen.KernelIdeal.Skeleton
import proofs.«103674_j78288663871843_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## The body's four conditions, as the kernel computes them from the grid point

The body zeroes its accumulator when the column tile is the first (`c1`), adds the tile's row sums with the
diagonal entry masked out when the tile meets the diagonal (`c2`), adds them unmasked otherwise (`c3`, the
negation of `c2`), and copies the accumulator to the output block when the column tile is the last (`c4`). -/

abbrev c1 (i : grid0.Coords) : Prop := (Scalar.cmpi .ne (Scalar.extui (Scalar.cmpi .eq (BitVec.ofNat 32 (i 1).val) 0#32)) 0#32) = 1#1
abbrev w18 (i : grid0.Coords) : BitVec 1 :=
  Scalar.andi (Scalar.cmpi .slt (Scalar.muli (BitVec.ofNat 32 (i 1).val) 1024#32) (Scalar.addi (Scalar.muli (BitVec.ofNat 32 (i 0).val) 1024#32) 1024#32))
    (Scalar.cmpi .slt (Scalar.muli (BitVec.ofNat 32 (i 0).val) 1024#32) (Scalar.addi (Scalar.muli (BitVec.ofNat 32 (i 1).val) 1024#32) 1024#32))
abbrev c2 (i : grid0.Coords) : Prop := (Scalar.cmpi .ne (Scalar.extui (w18 i)) 0#32) = 1#1
abbrev c3 (i : grid0.Coords) : Prop := (Scalar.cmpi .ne (Scalar.extui (Scalar.xori (w18 i) 1#1)) 0#32) = 1#1
abbrev c4 (i : grid0.Coords) : Prop := k0_cond4 i = 1#1

/-- The third condition is the second one negated: the same bit, flipped. -/
theorem c3_iff (i : grid0.Coords) : c3 i ↔ ¬ c2 i := by
  have key : ∀ v : BitVec 1, ((Scalar.cmpi .ne (Scalar.extui (Scalar.xori v 1#1)) 0#32) = 1#1) ↔ ¬ ((Scalar.cmpi .ne (Scalar.extui v) 0#32) = 1#1) := by decide
  exact key (w18 i)

/-- What one grid point makes of the accumulator `s`, given the row block `x0` and the column block `x1`:
    zero it at the first column tile, then add the tile's (masked or plain) row sums. -/
def accStep (i : grid0.Coords) (x0 x1 : Vec F S1024x128 .bf16) (s : Vec F S1024x1 .f32) : Vec F S1024x1 .f32 :=
  let s1 : Vec F S1024x1 .f32 := if c1 i then k0_pay1 (F := F) else s
  let s2 : Vec F S1024x1 .f32 := if c2 i then k0_pay3 i x0 x1 s1 else s1
  if c3 i then k0_pay4 x0 x1 s2 else s2

/-- What it makes of the output block `o`: the new accumulator at the last column tile, untouched elsewhere. -/
def outStep (i : grid0.Coords) (x0 x1 : Vec F S1024x128 .bf16) (s o : Vec F S1024x1 .f32) : Vec F S1024x1 .f32 :=
  if c4 i then accStep i x0 x1 s else o

/-- At the first column tile the accumulator's earlier contents do not matter. -/
theorem accStep_of_c1 (i : grid0.Coords) (h : c1 i) (x0 x1 : Vec F S1024x128 .bf16) (s s' : Vec F S1024x1 .f32) :
    accStep i x0 x1 s = accStep i x0 x1 s' := by
  unfold accStep; simp only [if_pos h]

theorem hz2 : (![0, 0] : Fin 2 → ℕ) = fun _ => 0 := by funext a; fin_cases a <;> rfl

/-- A whole-buffer load after a newest whole-buffer store reads that store's values, whatever was stored before. -/
theorem readCov_newest {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

set_option maxHeartbeats 8000000 in
/-- THE BODY AT ANY GRID POINT, on whole buffers: from the row block, the column block, the output buffer at `o` and the
    accumulator at `s`, it runs to the blocks unchanged, the output buffer at `outStep` and the accumulator at `accStep`
    — by cases on the three independent conditions, each case run symbolically. -/
theorem body_run (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole)
    (x0 x1 : Vec F S1024x128 .bf16) (o s : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare o ∗ owns (c : Thread nD τ) arg5 fullShare s
        ∗ (iprop(owns (c : Thread nD τ) arg2 fullShare x0 ∗ owns (c : Thread nD τ) arg3 fullShare x1 ∗ owns (c : Thread nD τ) arg4 fullShare (outStep i x0 x1 s o) ∗ owns (c : Thread nD τ) arg5 fullShare (accStep i x0 x1 s)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  by_cases h1 : c1 i <;> by_cases h2 : c2 i <;> by_cases h4 : c4 i
  all_goals
    first
    | have h3 : ¬ c3 i := fun h => ((c3_iff i).mp h) h2
    | have h3 : c3 i := (c3_iff i).mpr h2
  all_goals
    first | have e1 : c1 i = True := eq_true h1 | have e1 : c1 i = False := eq_false h1
    first | have e2 : c2 i = True := eq_true h2 | have e2 : c2 i = False := eq_false h2
    first | have e3 : c3 i = True := eq_true h3 | have e3 : c3 i = False := eq_false h3
    first | have e4 : c4 i = True := eq_true h4 | have e4 : c4 i = False := eq_false h4
    sl_exec (disch := first | exact h1 | exact h2 | exact h3 | exact h4)
    sl_step
    iapply Hk
    isplitl [H0]
    · iexists _; isplitr; · ipureintro; exact hf0
      iexact H0
    isplitl [H1]
    · iexists _; isplitr; · ipureintro; exact hf1
      iexact H1
    isplitl [H4]
    · iexists _; isplitr; swap; · iexact H4
      ipureintro
      first
      | (simp only [outStep, e4, if_false]; exact hf4)
      | (try sl_unfold_words
         rw [View.read_writes_eq_canon _ _ _ (fun y => ⟨_, List.mem_cons_self, View.mem_set_unit_zero hz2 Gen.inb_S1024x1_S1024x1_0_0 y⟩), View.canon_cons_unit_zero hz2]
         simp only [readCov_newest (S := S1024x1) _ hz2, View.readAt_eq_ld, harg2.read_unread, harg3.read_unread, harg5.read_unread, View.ld_unit_zero (S := S1024x1) hz2, View.ld_unit_zero (S := S1024x128) hz2,
           outStep, accStep, e1, e2, e3, e4, if_true, if_false])
    iexists _; isplitr; swap; · iexact H5
    ipureintro
    try sl_unfold_words
    rw [View.read_writes_eq_canon _ _ _ (fun y => ⟨_, List.mem_cons_self, View.mem_set_unit_zero hz2 Gen.inb_S1024x1_S1024x1_0_0 y⟩), View.canon_cons_unit_zero hz2]
    simp only [readCov_newest (S := S1024x1) _ hz2, View.readAt_eq_ld, harg2.read_unread, harg3.read_unread, harg5.read_unread, View.ld_unit_zero (S := S1024x1) hz2, View.ld_unit_zero (S := S1024x128) hz2,
      accStep, e1, e2, e3, if_true, if_false]

end Cert.KernelIdeal.Hand

end
-- ==== Proof.KIData.lean ====
import proofs.«103674_j78288663871843_2_alg».proof.Proof.Gen.KernelIdeal.Launch
import proofs.«103674_j78288663871843_2_alg».proof.Proof.Gen.KernelIdeal.Skeleton
import proofs.«103674_j78288663871843_2_alg».proof.Proof.Gen.KernelIdeal.Points
import proofs.«103674_j78288663871843_2_alg».proof.Proof.KIBody
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- Core `c`'s unscoped buffers at launch, -/
abbrev V0 (c : Dev nD) : Valuation τ sig (Elt F) := fun b => m (c, b)
/-- after the first row-norm call, -/
abbrev V1 (c : Dev nD) : Valuation τ sig (Elt F) := StableHlo.after hostOps0 (V0 m c)
/-- after the first normalisation, -/
abbrev V2 (c : Dev nD) : Valuation τ sig (Elt F) := StableHlo.after hostOps0_1 (V1 m c)
/-- after the second row-norm call, -/
abbrev V3 (c : Dev nD) : Valuation τ sig (Elt F) := StableHlo.after hostOps0_2 (V2 m c)
/-- and when the region is entered: both halves normalised, joined and narrowed. -/
abbrev V4 (c : Dev nD) : Valuation τ sig (Elt F) := StableHlo.after hostOps0_3 (V3 m c)
/-- The same read at a TensorCore reference. -/
abbrev V (c : Dev nD) (b : Ref sig .tc) : Buf (Elt F) ((c : Thread nD τ).loc b) := V4 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulator, point by point -/

/-- What the accumulator holds after the body at position `n`: one step from what the position before left
    (at the first position, where the step zeroes it, from anything). -/
def accAt (c : Dev nD) : (n : ℕ) → n < cfg0.N → Vec F S1024x1 .f32
  | 0, hn => accStep (grid0.coords ⟨0, hn⟩) (iblk m c 0 ⟨0, hn⟩) (iblk m c 1 ⟨0, hn⟩) (k0_pay1 (F := F))
  | n + 1, hn => accStep (grid0.coords ⟨n + 1, hn⟩) (iblk m c 0 ⟨n + 1, hn⟩) (iblk m c 1 ⟨n + 1, hn⟩) (accAt c n (Nat.lt_of_succ_lt hn))

theorem accAt_zero (c : Dev nD) (t : Fin cfg0.N) (hz : t.val = 0) :
    accAt m c t.val t.isLt = accStep (grid0.coords t) (iblk m c 0 t) (iblk m c 1 t) (k0_pay1 (F := F)) := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt = accStep (grid0.coords t) (iblk m c 0 t) (iblk m c 1 t)
      (accAt m c (t.val - 1) (Nat.lt_of_le_of_lt (Nat.sub_le _ _) t.isLt)) := by
  obtain ⟨n, hn⟩ := t
  cases n with
  | zero => exact absurd rfl hz
  | succ n => rfl

/-! ## The schedule's facts, decided over the 64 points -/

/-- The first point is in the first column tile. -/
theorem c1_of_zero : ∀ t : Fin cfg0.N, t.val = 0 → c1 (grid0.coords t) :=
  (by decide +kernel : ∀ t : Fin grid0.N, t.val = 0 → c1 (grid0.coords t))
/-- The input windows are never idle. -/
theorem live0 : ∀ t : Fin cfg0.N, cfg0.idle 0 (grid0.coords t) = false := by decide +kernel
theorem live1 : ∀ t : Fin cfg0.N, cfg0.idle 1 (grid0.coords t) = false := by decide +kernel
/-- Away from the last column tile the output window is idle and not written back; -/
theorem idle2 : ∀ t : Fin cfg0.N, ¬ c4 (grid0.coords t) → cfg0.idle 2 (grid0.coords t) = true := by decide +kernel
theorem noFlush2 : ∀ t : Fin cfg0.N, ¬ c4 (grid0.coords t) → (cfg0.win 2).flush t = false := by decide +kernel
/-- at the last column tile it is live. -/
theorem live2 : ∀ t : Fin cfg0.N, c4 (grid0.coords t) → cfg0.idle 2 (grid0.coords t) = false := by decide +kernel

/-! ## The staging memrefs at a point -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
/-- The accumulator: a scoped buffer of the kernel's own, passed beside the windows. -/
abbrev scM : Memref sig .tc .vmem S1024x1 .f32 := Memref.whole cc0_scratch0

/-! ## The region's invariant -/

/-- Before the first point the accumulator holds anything; after point `n` it holds `accAt n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The scoped buffers no window stages are the accumulator alone, at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-! ## The pipeline's proof data -/

/-- The arrays as the region finds them; after the body each input's buffer at its block and the output's at the
    accumulator (consulted only at the last column tile, where the body copies it there); the two input windows
    read one array, each at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem outStep_pos {i : grid0.Coords} (h : c4 i) (x0 x1 : Vec F S1024x128 .bf16) (s o : Vec F S1024x1 .f32) :
    outStep i x0 x1 s o = accStep i x0 x1 s := if_pos h
theorem outStep_neg {i : grid0.Coords} (h : ¬ c4 i) (x0 x1 : Vec F S1024x128 .bf16) (s o : Vec F S1024x1 .f32) :
    outStep i x0 x1 s o = o := if_neg h

set_option maxHeartbeats 4000000 in
/-- The body at any point: the inputs' buffers hold their blocks, the accumulator what the point before left
    (anything at the first point, where the body zeroes it); the body's run leaves the accumulator one step on
    and, at the last column tile, the output buffer at the accumulator; elsewhere the output buffer is handed back
    as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  by_cases hz : t.val = 0
  · have hacc : ∀ d, accStep (grid0.coords t) (iblk m c 0 t) (iblk m c 1 t) d = accAt m c t.val t.isLt := fun d =>
      (accStep_of_c1 _ (c1_of_zero t hz) _ _ d _).trans (accAt_zero m c t hz).symm
    rw [Phi_castSucc, PhiS_zero m c _ _ hz, rest_eq]
    by_cases h4 : c4 (grid0.coords t)
    · rw [show (dats m 0 c).leavesExact 2 t = owns (c : Thread nD τ) (ms2 t) fullShare ((dats m 0 c).after 2 t) from by
        unfold Dat.leavesExact; rw [live2 t h4], after2]
      iintro ⟨⟨%ds, HS⟩, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ ds Set.univ _)
      isplitl [H0]; · iexact H0
      isplitl [H1]; · iexact H1
      isplitl [H2]; · iexact H2
      isplitl [HS]; · iexact HS
      rw [outStep_pos h4, hacc ds]
      iintro ⟨H0, H1, H2, HS⟩
      isplitl [HS]; · iexact HS
      isplitl [Ho]; · iexact Ho
      isplitl [H0]; · iexact H0
      isplitl [H1]; · iexact H1
      iexact H2
    · rw [Dat.leavesExact_idle (dats m 0 c) 2 t (idle2 t h4) (noFlush2 t h4)]
      iintro ⟨⟨%ds, HS⟩, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ ds Set.univ _)
      isplitl [H0]; · iexact H0
      isplitl [H1]; · iexact H1
      isplitl [H2]; · iexact H2
      isplitl [HS]; · iexact HS
      rw [outStep_neg h4, hacc ds]
      iintro ⟨H0, H1, H2, HS⟩
      isplitl [HS]; · iexact HS
      isplitl [Ho]; · iexact Ho
      isplitl [H0]; · iexact H0
      isplitl [H1]; · iexact H1
      iexists _; iexact H2
  · have hacc := (accAt_pos m c t hz).symm
    rw [Phi_castSucc, PhiS_pos m c _ _ hz]
    by_cases h4 : c4 (grid0.coords t)
    · rw [show (dats m 0 c).leavesExact 2 t = owns (c : Thread nD τ) (ms2 t) fullShare ((dats m 0 c).after 2 t) from by
        unfold Dat.leavesExact; rw [live2 t h4], after2]
      iintro ⟨HS, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [outStep_pos h4, hacc]
      iintro ⟨H0, H1, H2, HS⟩
      isplitl [HS]; · iexact HS
      isplitl [Ho]; · iexact Ho
      isplitl [H0]; · iexact H0
      isplitl [H1]; · iexact H1
      iexact H2
    · rw [Dat.leavesExact_idle (dats m 0 c) 2 t (idle2 t h4) (noFlush2 t h4)]
      iintro ⟨HS, Ho, ⟨%d0, H0⟩, ⟨%d1, H1⟩, ⟨%d2, H2⟩⟩
      iapply (body_run c (grid0.coords t) (ms0 t) (hs0 t) (ms1 t) (hs1 t) (ms2 t) (hs2 t) scM (Memref.isWhole_whole _) (iblk m c 0 t) (iblk m c 1 t) _ _ Set.univ _)
      isplitl [H0]; · iexact H0
      isplitl [H1]; · iexact H1
      isplitl [H2]; · iexact H2
      isplitl [HS]; · iexact HS
      rw [outStep_neg h4, hacc]
      iintro ⟨H0, H1, H2, HS⟩
      isplitl [HS]; · iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
import proofs.«103674_j78288663871843_2_alg».proof.Proof.Gen.KernelIdeal.Launch
import proofs.«103674_j78288663871843_2_alg».proof.Proof.Gen.KernelIdeal.Skeleton
import proofs.«103674_j78288663871843_2_alg».proof.Proof.Gen.KernelIdeal.Points
import proofs.«103674_j78288663871843_2_alg».proof.Proof.KIData
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After the region -/

/-- Core `c`'s unscoped buffers when the region is left: the output array at what the pipeline wrote back, -/
abbrev V5 (c : Dev nD) : Valuation τ sig (Elt F) :=
  Function.update (V4 m c) main_v12 ((dats m 0 c).arrAt 2 cfg0.N : Buf (Elt F) ((c : Thread nD τ).loc main_v12))
/-- and at the end of @main. -/
abbrev V6 (c : Dev nD) : Valuation τ sig (Elt F) := StableHlo.after hostOps1 (V5 m c)

/-! ## What the host stretches write -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev hostOps0_W : List (Ref sig .tc) := [main_call0_v0, main_call0_cst, main_call0_v1, main_call0_v2, main_v0]
abbrev hostOps0_1_W : List (Ref sig .tc) := [main_cst, main_v1, main_v2, main_v3, main_v4]
abbrev hostOps0_2_W : List (Ref sig .tc) := [main_call1_v0, main_call1_cst, main_call1_v1, main_call1_v2, main_v5]
abbrev hostOps0_3_W : List (Ref sig .tc) := [main_cst_0, main_v6, main_v7, main_v8, main_v9, main_v10, main_v11]
abbrev hostOps1_W : List (Ref sig .tc) := [main_v13, main_v14, main_cst_1, main_v15, main_cst_2, main_v16, main_v17, main_v18, main_v19, main_v20, main_v21, main_v22, main_cst_3, main_v23, main_cst_4, main_v24]

theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)

/-- A reference none of the stretches before the region writes holds its launch contents when the region is entered. -/
theorem V4_of (c : Dev nD) (r : Ref sig .tc) (h0 : r ∉ hostOps0_W) (h1 : r ∉ hostOps0_1_W) (h2 : r ∉ hostOps0_2_W) (h3 : r ∉ hostOps0_3_W) :
    V4 m c r = m ((c : Thread nD τ).loc r) :=
  (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

/-- The region changes the output array alone. -/
theorem V5_of (c : Dev nD) (r : Ref sig .tc) (h : r ≠ main_v12) : V5 m c r = V4 m c r := by
  simp only [V5, Function.update_of_ne (StableHlo.devRef_ne_of_ne h : (Proc.devRef .tc r : DevRef τ sig) ≠ Proc.devRef .tc main_v12)]

theorem V5_out (c : Dev nD) : V5 m c main_v12 = (dats m 0 c).arrAt 2 cfg0.N := by
  simp only [V5, Function.update_self]

/-- Each argument reaches the end as launched. -/
theorem V6_arg0 (c : Dev nD) : V6 m c main_arg0 = m ((c : Thread nD τ).loc main_arg0) :=
  (StableHlo.after_of_writes_sub hostOps1 _ hostOps1_writes (by decide)).trans <|
    (V5_of m c main_arg0 (by decide)).trans (V4_of m c main_arg0 (by decide) (by decide) (by decide) (by decide))
theorem V6_arg1 (c : Dev nD) : V6 m c main_arg1 = m ((c : Thread nD τ).loc main_arg1) :=
  (StableHlo.after_of_writes_sub hostOps1 _ hostOps1_writes (by decide)).trans <|
    (V5_of m c main_arg1 (by decide)).trans (V4_of m c main_arg1 (by decide) (by decide) (by decide) (by decide))

/-! ## The launch: @main as segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def seg1 : HostSeg (Ix := Unit) (Name := ℕ) (U := UR sig nD τ) (Lvl := ℕ) (pcfgs (F := F)) defs₀ Variants.none L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) R
def seg2 : HostSeg (Ix := Unit) (Name := ℕ) (U := UR sig nD τ) (Lvl := ℕ) (pcfgs (F := F)) defs₀ Variants.none L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) R
def seg3 : HostSeg (Ix := Unit) (Name := ℕ) (U := UR sig nD τ) (Lvl := ℕ) (pcfgs (F := F)) defs₀ Variants.none L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) R
def seg5 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V5 m) R

/-! ## The region's arrays: one input array read through two windows, the output array -/

/-- The arrays behind the windows are the joined rows and the output, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v11) ↦{fullShare} W main_v11) ∗ (((c : Thread nD τ).loc main_v12) ↦{fullShare} W main_v12)) := by
  unfold Pipeline.arrBufs
  exact bigSep_eq_bigSepL_of_eq [main_v11, main_v12] (by decide) (by decide) _

/-- The pipeline's arrays: the joined rows at half a share to each input window, the output whole. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v11) ↦{fullShare.left} G 0) ∗ (((c : Thread nD τ).loc main_v11) ↦{fullShare.right} G 1)
          ∗ (((c : Thread nD τ).loc main_v12) ↦{fullShare} G 2)) := by
  unfold Dat.arrays
  rw [bigSep_W0, (arr_whole0 0).set_eq_univ, (arr_whole0 2).set_eq_univ]
  rfl

/-! ## The region -/

-- the library's lemmas are stated over `cfgs p` at the pinned configuration: unification may unfold plain definitions
set_option backward.isDefEq.respectTransparency.types false in
/-- THE REGION: entered from what the stretches before it left — the joined rows split between the two input windows,
    the output array whole, every other buffer bypassing —, left with the output array at what was written back. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (V5 m c) ∗ R c)
  X _ := iprop(emp)
  Y _ := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V4 m c) = unscopedBufs c (V m c) from (Pipeline.unscopedBufs_held c _).symm,
      Pipeline.unscopedBufs_split₀ cfgs 0 winFacts₀0.arr_unscoped c (V m c), arrBufs_eq, arrays_eq]
    iintro ⟨⟨⟨⟨H11, H12⟩, HZ⟩, HO⟩, -, -⟩
    ihave Hs := (pointsTo_share (PosShare.mem_left_op_right fullShare)).1 $$ H11
    icases Hs with ⟨Hl, Hr⟩
    imodintro
    isplitl [Hl Hr H12]
    · isplitl [Hl]; · iexact Hl
      isplitl [Hr]; · iexact Hr
      iexact H12
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by rw [show cfg0.N = 64 from N_0]; decide), rest_eq]
    iintro HS
    isplitr; · iempintro
    isplitr; · iempintro
    iexists _; iexact HS
  hexit c := by
    have hrest : (Pipeline.unscopedRest (Ix := Unit) (Name := ℕ) (U := UR sig nD τ) (Lvl := ℕ) spec0 c (fun b => V5 m c b) : sProp 𝕄)
        = Pipeline.unscopedRest spec0 c (V m c) := by
      unfold Pipeline.unscopedRest
      exact bigSep_congr fun b hb => by
        beta_reduce
        rw [V5_of m c b fun e => (Finset.mem_sdiff.mp hb).2 (e ▸ Finset.mem_image.mpr ⟨2, Finset.mem_univ _, rfl⟩)]
    rw [arrays_eq, show StableHlo.held (c : Thread nD τ) (Pipeline.ucRefs τ sig) (V5 m c) = unscopedBufs c (fun b => V5 m c b) from (Pipeline.unscopedBufs_held c _).symm,
      Pipeline.unscopedBufs_split₀ cfgs 0 winFacts₀0.arr_unscoped c (fun b => V5 m c b), arrBufs_eq, hrest]
    beta_reduce
    rw [V5_of m c main_v11 (by decide), V5_out, (dats m 0 c).arrAt_in 0 rfl, (dats m 0 c).arrAt_in 1 rfl]
    iintro ⟨⟨Hl, Hr, H12⟩, HO, -, HZ⟩
    ihave H11 := (pointsTo_share (PosShare.mem_left_op_right fullShare)).2 $$ [Hl Hr]
    · isplitl [Hl]; · iexact Hl
      iexact Hr
    imodintro
    isplitr [HO]
    · isplitl [H11 H12]
      · isplitl [H11]; · iexact H11
        iexact H12
      iexact HZ
    · unfold Pipeline.Dat.owesAt Pipeline.owesWithin
      icases HO with ⟨%W, -, HO⟩; iexists W; iexact HO

/-- @main as the list of its items. -/
abbrev segs : List (Seg (pcfgs (F := F)) adm (dats m) () defs₀ Variants.none L lv) :=
  [.host (seg0 m), .host (seg1 m), .host (seg2 m), .host (seg3 m), .region (reg0 m), .host (seg5 m)]

/-- The pipeline library's algebra is all of the certificate's. -/
abbrev EP : Emb (UR sig nD τ) (MT nD τ sig Unit (Elt F) ℕ (UR sig nD τ) ℕ) := emb₁
/-- The launch element: the staging cells and the pipeline's transfers. -/
def u₀ : UR sig nD τ := initOf (Pipeline.cells cfgs cellOf_inj) (Pipeline.launchToks cfgs cellOf_inj)

/-- The run's post: the result at what the last stretch computes from the region's output, the arguments as launched. -/
def QC : PUnit × MemSt nD τ sig (Elt F) → Prop := fun r => ∀ c : Dev nD,
  r.2.mem ((c : Thread nD τ).loc main_v24) = V6 m c main_v24
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- From any memory with zero counters every weakly fair execution of @main terminates, nothing faulting, with the result
    buffer at `V6` and the argument arrays unchanged. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by
      rewrite [main_chain c, Seg.run_eq_chain,
        show (segs m).map Seg.prog = [
          StableHlo.seq hostOps0,
          StableHlo.seq hostOps0_1,
          StableHlo.seq hostOps0_2,
          StableHlo.seq hostOps0_3,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c : Thread nD τ).loc main_v24) = V6 m c main_v24
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (V6 m c) s') $$ [Hh HSI]
      · isplitl [Hh] <;> iassumption
      icases Hr with ⟨%h, HSI⟩
      imodintro
      isplitr
      · ipureintro
        have h24 := h (Proc.devRef .tc main_v24) (Finset.mem_filter.mpr ⟨StableHlo.devRef_mem_tcRefs main_v24, by decide⟩)
        have h0 := h (Proc.devRef .tc main_arg0) (Finset.mem_filter.mpr ⟨StableHlo.devRef_mem_tcRefs main_arg0, by decide⟩)
        have h1 := h (Proc.devRef .tc main_arg1) (Finset.mem_filter.mpr ⟨StableHlo.devRef_mem_tcRefs main_arg1, by decide⟩)
        exact ⟨h24, h0.trans (V6_arg0 m c), h1.trans (V6_arg1 m c)⟩
      · iexact HSI)
    (hQ := fun _ h => h)

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.KernelIdeal.Hand

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibWordOrder.lean ====
/-
  Signed comparisons and sums of the 32-bit words of natural numbers.

  A mask such as "row number below column number" is computed on 32-bit words: the numbers are built by adding and
  multiplying the words of smaller numbers and then compared as signed integers.  Taking the word of a number
  commutes with addition and multiplication (both are arithmetic modulo `2³²`), and for numbers below `2³¹` the
  signed order of the words is the order of the numbers.  A comparison's one-bit word, used to choose between
  "false" and "true", is the negated comparison.
-/
import Idealize.ShloMosaic.Lib.WordArith

namespace Cert.WordOrder

open Idealize.ShloMosaic

/-- The word of a sum is the sum of the words. -/
theorem addi_ofNat (a b : ℕ) : IntOp.addi (BitVec.ofNat 32 a) (BitVec.ofNat 32 b) = BitVec.ofNat 32 (a + b) :=
  (BitVec.ofNat_add a b).symm

/-- The word of a product is the product of the words. -/
theorem muli_ofNat (a b : ℕ) : IntOp.muli (BitVec.ofNat 32 a) (BitVec.ofNat 32 b) = BitVec.ofNat 32 (a * b) :=
  (BitVec.ofNat_mul a b).symm

/-- Signed `<` on the words of two numbers below `2³¹` is `<` on the numbers. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt, WordArith.toInt_ofNat_small a ha, WordArith.toInt_ofNat_small b hb]
  simp

/-- Signed `≤` on the words of two numbers below `2³¹` is `≤` on the numbers. -/
theorem sle_ofNat (a b : ℕ) (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle, WordArith.toInt_ofNat_small a ha, WordArith.toInt_ofNat_small b hb]
  simp

/-- Signed `>` likewise. -/
theorem sgt_ofNat (a b : ℕ) (ha : a < 2 ^ 31) (hb : b < 2 ^ 31) :
    IntOp.cmpi .sgt (BitVec.ofNat 32 a) (BitVec.ofNat 32 b) = BitVec.ofBool (decide (b < a)) :=
  slt_ofNat b a hb ha

/-- Signed `≥` likewise. -/
theorem sge_ofNat (a b : ℕ) (ha : a < 2 ^ 31) (hb : b < 2 ^ 31) :
    IntOp.cmpi .sge (BitVec.ofNat 32 a) (BitVec.ofNat 32 b) = BitVec.ofBool (decide (b ≤ a)) :=
  sle_ofNat b a hb ha

/-- Choosing "false" where a condition holds and "true" elsewhere is the negated condition. -/
theorem select_false_true (p : Bool) : Scalar.select (BitVec.ofBool p) (0#1) (1#1) = BitVec.ofBool (!p) := by
  cases p <;> rfl

end Cert.WordOrder
-- ==== Proof.KIPay.lean ====
import proofs.«103674_j78288663871843_2_alg».proof.Proof.KIBody
import proofs.«103674_j78288663871843_2_alg».proof.Proof.LibPlainProduct
import proofs.«103674_j78288663871843_2_alg».proof.Proof.LibRowForms
import proofs.«103674_j78288663871843_2_alg».proof.Proof.LibColumnForms
import proofs.«103674_j78288663871843_2_alg».proof.Proof.LibWordOrder
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

/-! # One grid point's arithmetic on the extended reals

A grid point (row tile, column tile) holds 1024 rows `x0` and 1024 rows `x1` of the unit-row matrix.  Entry (p, q) of the
tile is `exp` of the dot product of row p of `x0` with row q of `x1`; the accumulator gains, in row p, the sum over q of
those entries, the entry on the matrix's diagonal (global row number = global column number) replaced by zero. -/

namespace Cert.KernelIdeal.Val

open Cert.KernelIdeal Cert.KernelIdeal.Gen Cert.KernelIdeal.Hand
open Idealize.ShloMosaic Idealize.ShloMosaic.ValueIdx

/-- `exp` of the dot product of row `p` of `x0` with row `q` of `x1`. -/
def dotExp (x0 x1 : FVec Ideal S1024x128 .bf16) (p q : Fin 1024) : EReal :=
  Ideal.exp (∑ d : Fin 128, x0 (ix2 p d) * x1 (ix2 q d))

/-- The tile: the product with the transposed column block into the zero accumulator, times one, exponentiated. -/
theorem pay2_apply (x0 x1 : FVec Ideal S1024x128 .bf16) (p q : Fin 1024) :
    k0_pay2 (F := Ideal) x0 x1 (ix2 p q) = dotExp x0 x1 p q := by
  unfold k0_pay2 dotExp
  show Ideal.exp ((matmul dot_S1024x128_S128x1024_S1024x1024_1_0_0_1_n_n none (shapeCast S1024x128 x0 _)
      (transpose S128x1024 [1, 0] (shapeCast S1024x128 x1 _) _) (constant S1024x1024 .f32 0x00000000#32)) (ix2 p q)
      * Ideal.ofBits .f32 0x3F800000#32) = _
  rw [shapeCast_self, shapeCast_self, Ideal.ofBits_one_f32, mul_one]
  exact congrArg Ideal.exp (PlainProduct.matmul_transposed_apply dot_S1024x128_S128x1024_S1024x1024_1_0_0_1_n_n rfl none x0 x1 _ p q)

/-- Choosing by the equality of the 32-bit words of two numbers below 2³² is choosing by their equality. -/
theorem select_eq_words {α : Type} (a b : ℕ) (ha : a < 2 ^ 32) (hb : b < 2 ^ 32) (A B : α) :
    Scalar.select (IntOp.cmpi .eq (BitVec.ofNat 32 a) (BitVec.ofNat 32 b)) A B = if a = b then A else B := by
  by_cases h : a = b
  · subst h
    rw [if_pos rfl]
    show Scalar.select (BitVec.ofBool (BitVec.ofNat 32 a == BitVec.ofNat 32 a)) A B = A
    rw [show (BitVec.ofNat 32 a == BitVec.ofNat 32 a) = true from beq_self_eq_true _]
    exact ValueIdx.select_one A B
  · have hne : BitVec.ofNat 32 a ≠ BitVec.ofNat 32 b := fun e => h (by
      have := congrArg BitVec.toNat e
      simp only [BitVec.toNat_ofNat] at this
      rw [Nat.mod_eq_of_lt ha, Nat.mod_eq_of_lt hb] at this
      exact this)
    rw [if_neg h]
    show Scalar.select (BitVec.ofBool (BitVec.ofNat 32 a == BitVec.ofNat 32 b)) A B = B
    rw [show (BitVec.ofNat 32 a == BitVec.ofNat 32 b) = false from beq_eq_false_iff_ne.mpr hne]
    exact ValueIdx.select_zero A B

/-- The zeroed accumulator. -/
theorem pay1_apply (j : S1024x1.Idx) : k0_pay1 (F := Ideal) j = 0 := by
  unfold k0_pay1
  show (shapeCast S1024x1 (broadcast S1024x1 (Scalar.ofBits (F := Ideal) .f32 0x00000000#32)) _) j = 0
  rw [shapeCast_self]
  exact Ideal.ofBits_zero_f32

/-- The unmasked step: the accumulator plus the tile's row sums. -/
theorem pay4_apply (x0 x1 : FVec Ideal S1024x128 .bf16) (s : FVec Ideal S1024x1 .f32) (p : Fin 1024) (u : Fin 1) :
    k0_pay4 (F := Ideal) x0 x1 s (ix2 p u) = s (ix2 p u) + ∑ q : Fin 1024, dotExp x0 x1 p q := by
  unfold k0_pay4
  show (shapeCast S1024x1 (addf s (shapeCast S1024x1 (multiReduction .add [1] S1024 (k0_pay2 (F := Ideal) x0 x1) 0x00000000#32 _ (.inl rfl) rfl) _)) _) (ix2 p u) = _
  rw [shapeCast_self]
  show s (ix2 p u) + (shapeCast S1024x1 (multiReduction .add [1] S1024 (k0_pay2 (F := Ideal) x0 x1) 0x00000000#32 _ (.inl rfl) rfl) _) (ix2 p u) = _
  rw [Cert.ColumnForms.shapeCast_a_a1_apply, Cert.RowForms.multiReduction_add_rows]
  exact congrArg (s (ix2 p u) + ·) (Finset.sum_congr rfl fun q _ => pay2_apply x0 x1 p q)

/-- The masked step: the same with the entry on the diagonal replaced by zero. -/
theorem pay3_apply (i : grid0.Coords) (x0 x1 : FVec Ideal S1024x128 .bf16) (s : FVec Ideal S1024x1 .f32) (p : Fin 1024) (u : Fin 1) :
    k0_pay3 (F := Ideal) i x0 x1 s (ix2 p u)
      = s (ix2 p u) + ∑ q : Fin 1024, (if (i 0).val * 1024 + p.val = (i 1).val * 1024 + q.val then 0 else dotExp x0 x1 p q) := by
  unfold k0_pay3
  show (shapeCast S1024x1 (addf s (shapeCast S1024x1 (multiReduction .add [1] S1024
      (select (cmpi .eq (addi (broadcast S1024x1024 (Scalar.muli (BitVec.ofNat 32 (i 0).val) 1024#32)) (iota .tc S1024x1024 32 [0] _))
          (addi (broadcast S1024x1024 (Scalar.muli (BitVec.ofNat 32 (i 1).val) 1024#32)) (iota .tc S1024x1024 32 [1] _)))
        (broadcast S1024x1024 (Scalar.ofBits (F := Ideal) .f32 0x00000000#32)) (k0_pay2 (F := Ideal) x0 x1))
      0x00000000#32 _ (.inl rfl) rfl) _)) _) (ix2 p u) = _
  rw [shapeCast_self]
  show s (ix2 p u) + (shapeCast S1024x1 (multiReduction .add [1] S1024 _ 0x00000000#32 _ (.inl rfl) rfl) _) (ix2 p u) = _
  rw [Cert.ColumnForms.shapeCast_a_a1_apply, Cert.RowForms.multiReduction_add_rows]
  refine congrArg (s (ix2 p u) + ·) (Finset.sum_congr rfl fun q _ => ?_)
  show Scalar.select (IntOp.cmpi .eq (IntOp.addi (IntOp.muli (BitVec.ofNat 32 (i 0).val) (BitVec.ofNat 32 1024)) (iota .tc S1024x1024 32 [0] _ (ix2 p q)))
      (IntOp.addi (IntOp.muli (BitVec.ofNat 32 (i 1).val) (BitVec.ofNat 32 1024)) (iota .tc S1024x1024 32 [1] _ (ix2 p q))))
      (Ideal.ofBits .f32 0x00000000#32) (k0_pay2 (F := Ideal) x0 x1 (ix2 p q)) = _
  rw [iota_single_apply, iota_single_apply, Cert.WordOrder.muli_ofNat, Cert.WordOrder.muli_ofNat, Cert.WordOrder.addi_ofNat, Cert.WordOrder.addi_ofNat]
  have h0 : (i 0).val < 8 := (i 0).isLt
  have h1 : (i 1).val < 8 := (i 1).isLt
  rw [select_eq_words _ _ (by show (i 0).val * 1024 + p.val < 2 ^ 32; have := p.isLt; omega) (by show (i 1).val * 1024 + q.val < 2 ^ 32; have := q.isLt; omega),
    Ideal.ofBits_zero_f32, pay2_apply]

/-- ONE GRID POINT on the accumulator, entry by entry: zero or the old value (first column tile or not), plus the tile's
    row sums with the diagonal entry replaced by zero — when the tile does not meet the diagonal there is none to replace. -/
theorem accStep_apply (i : grid0.Coords) (hi : c2 i ↔ (i 0).val = (i 1).val) (x0 x1 : FVec Ideal S1024x128 .bf16)
    (s : FVec Ideal S1024x1 .f32) (p : Fin 1024) (u : Fin 1) :
    accStep (F := Ideal) i x0 x1 s (ix2 p u)
      = (if c1 i then 0 else s (ix2 p u))
        + ∑ q : Fin 1024, (if (i 0).val * 1024 + p.val = (i 1).val * 1024 + q.val then 0 else dotExp x0 x1 p q) := by
  unfold accStep
  by_cases h2 : c2 i
  · have h3 : ¬ c3 i := fun h => ((c3_iff i).mp h) h2
    simp only [if_pos h2, if_neg h3]
    rw [pay3_apply]
    by_cases h1 : c1 i
    · simp only [if_pos h1]; rw [pay1_apply]
    · simp only [if_neg h1]
  · have h3 : c3 i := (c3_iff i).mpr h2
    simp only [if_neg h2, if_pos h3]
    rw [pay4_apply]
    have hne : (i 0).val ≠ (i 1).val := fun e => h2 (hi.mpr e)
    have hsum : ∑ q : Fin 1024, dotExp x0 x1 p q
        = ∑ q : Fin 1024, (if (i 0).val * 1024 + p.val = (i 1).val * 1024 + q.val then 0 else dotExp x0 x1 p q) :=
      Finset.sum_congr rfl fun q _ => by
        rw [if_neg]; intro e; have := p.isLt; have := q.isLt; omega
    rw [hsum]
    by_cases h1 : c1 i
    · simp only [if_pos h1]; rw [pay1_apply]
    · simp only [if_neg h1]

end Cert.KernelIdeal.Val

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.SimSpec.lean ====
import Idealize.ShloMosaic.PureOps.Ideal
import Idealize.ShloMosaic.Lib.ValueIdx

noncomputable section

open scoped BigOperators

/-! # The denominator of one row, as a function of the unit rows

For the 8192 unit rows `R` (128 entries each), row `r`'s denominator is the sum over every other row `c` of `exp` of the
dot product of rows `r` and `c`. -/

namespace Cert.SimSpec

open Idealize.ShloMosaic Idealize.ShloMosaic.ValueIdx

/-- One term of row `r`'s denominator: `exp` of the dot product of rows `r` and `c`, zero when `c` is `r` itself. -/
def offDiag (R : (⟨2, ![8192, 128]⟩ : Shape).Idx → EReal) (r cc : Fin 8192) : EReal :=
  if r = cc then 0 else Ideal.exp (∑ d : Fin 128, R (ix2 r d) * R (ix2 cc d))

/-- Row `r`'s denominator. -/
def den (R : (⟨2, ![8192, 128]⟩ : Shape).Idx → EReal) (r : Fin 8192) : EReal := ∑ cc : Fin 8192, offDiag R r cc

end Cert.SimSpec

end
-- ==== Proof.KIAcc.lean ====
import proofs.«103674_j78288663871843_2_alg».proof.Proof.KIData
import proofs.«103674_j78288663871843_2_alg».proof.Proof.KIPay
import proofs.«103674_j78288663871843_2_alg».proof.Proof.LibBlockedSum
import proofs.«103674_j78288663871843_2_alg».proof.Proof.SimSpec

set_option maxRecDepth 16384

noncomputable section

open scoped BigOperators

/-! # What the region writes back: every row's denominator

Point `t` of the 8 × 8 grid is row tile `t / 8`, column tile `t % 8`.  Its row block is rows `1024·(t/8) …` of the unit
rows, its column block rows `1024·(t%8) …`.  After the point the accumulator's row `p` holds the partial sum, over the
column tiles `0 … t % 8`, of the denominator terms of global row `1024·(t/8) + p`; after the last column tile that is the
whole denominator, and it is what the point writes back. -/

namespace Cert.KernelIdeal.Val

open Cert.KernelIdeal Cert.KernelIdeal.Gen Cert.KernelIdeal.Hand Cert.SimSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The schedule in closed form, decided over the 64 points -/

theorem coords0 : ∀ t : Fin cfg0.N, (grid0.coords t 0).val = t.val / 8 :=
  (by decide +kernel : ∀ t : Fin grid0.N, (grid0.coords t 0).val = t.val / 8)
theorem coords1 : ∀ t : Fin cfg0.N, (grid0.coords t 1).val = t.val % 8 :=
  (by decide +kernel : ∀ t : Fin grid0.N, (grid0.coords t 1).val = t.val % 8)
theorem c1_iff : ∀ t : Fin cfg0.N, c1 (grid0.coords t) ↔ t.val % 8 = 0 :=
  (by decide +kernel : ∀ t : Fin grid0.N, c1 (grid0.coords t) ↔ t.val % 8 = 0)
theorem c2_iff : ∀ t : Fin cfg0.N, c2 (grid0.coords t) ↔ (grid0.coords t 0).val = (grid0.coords t 1).val :=
  (by decide +kernel : ∀ t : Fin grid0.N, c2 (grid0.coords t) ↔ (grid0.coords t 0).val = (grid0.coords t 1).val)
/-- The windows' block indices. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-! ## The blocks, entry by entry -/

/-- The row block of point `t`: rows `1024·(t/8) …` of the unit rows. -/
theorem iblk0_apply (c : Dev nD) (t : Fin cfg0.N) (p : Fin 1024) (d : Fin 128) :
    iblk m c 0 t (ix2 p d) = V m c main_v11 (ix2 (⟨1024 * (t.val / 8) + p.val, by have := p.isLt; have := t.isLt; have : cfg0.N = 64 := N_0; omega⟩ : Fin 8192) d) := by
  unfold iblk
  show V m c main_v11 (((cfg0.win 0).blk t).view.emb (ix2 p d)) = _
  obtain ⟨e0, e1, -⟩ := idx_facts t
  refine congrArg _ (funext fun a => Fin.ext ?_)
  match a with
  | ⟨0, _⟩ => show win0_0.index t (0 : Fin 2) * 1024 + 1 * p.val = 1024 * (t.val / 8) + p.val; omega
  | ⟨1, _⟩ => show win0_0.index t (1 : Fin 2) * 128 + 1 * d.val = d.val; omega

/-- The column block of point `t`: rows `1024·(t%8) …`. -/
theorem iblk1_apply (c : Dev nD) (t : Fin cfg0.N) (q : Fin 1024) (d : Fin 128) :
    iblk m c 1 t (ix2 q d) = V m c main_v11 (ix2 (⟨1024 * (t.val % 8) + q.val, by have := q.isLt; omega⟩ : Fin 8192) d) := by
  unfold iblk
  show V m c main_v11 (((cfg0.win 1).blk t).view.emb (ix2 q d)) = _
  obtain ⟨-, -, e0, e1, -⟩ := idx_facts t
  refine congrArg _ (funext fun a => Fin.ext ?_)
  match a with
  | ⟨0, _⟩ => show win0_1.index t (0 : Fin 2) * 1024 + 1 * q.val = 1024 * (t.val % 8) + q.val; omega
  | ⟨1, _⟩ => show win0_1.index t (1 : Fin 2) * 128 + 1 * d.val = d.val; omega

theorem hn8192 : 0 < 8192 := by norm_num

/-- Global row `1024·(n/8) + p`. -/
abbrev rowOf (n : ℕ) (hn : n < 64) (p : Fin 1024) : Fin 8192 := ⟨1024 * (n / 8) + p.val, by have := p.isLt; omega⟩

/-- ONE TILE'S CONTRIBUTION to row `p` of the accumulator is the block sum, over column tile `t % 8`, of the
    denominator terms of global row `1024·(t/8) + p`. -/
theorem tile_sum (c : Dev nD) (t : Fin cfg0.N) (p : Fin 1024) :
    (∑ q : Fin 1024, (if (grid0.coords t 0).val * 1024 + p.val = (grid0.coords t 1).val * 1024 + q.val then (0 : EReal)
        else dotExp (iblk m c 0 t) (iblk m c 1 t) p q))
      = BlockedSum.blockSum hn8192 1024 (offDiag (V m c main_v11) (rowOf t.val (lt_of_lt_of_eq t.isLt N_0) p)) (t.val % 8) := by
  unfold BlockedSum.blockSum
  refine Finset.sum_congr rfl fun q _ => ?_
  have hk : t.val % 8 < 8 := Nat.mod_lt _ (by norm_num)
  have hv := BlockedSum.blkIdx_val hn8192 (show 8 * 1024 = 8192 from rfl) hk q
  have hcc : BlockedSum.blkIdx hn8192 1024 (t.val % 8) q = (⟨1024 * (t.val % 8) + q.val, by have := q.isLt; omega⟩ : Fin 8192) := Fin.ext hv
  unfold offDiag dotExp
  rw [hcc, coords0 t, coords1 t]
  refine if_congr ?_ rfl ?_
  · constructor
    · intro h; exact Fin.ext (by show 1024 * (t.val / 8) + p.val = 1024 * (t.val % 8) + q.val; omega)
    · intro h; have := congrArg Fin.val h; simp only at this; omega
  · exact congrArg Ideal.exp (Finset.sum_congr rfl fun d _ => by rw [iblk0_apply, iblk1_apply])

/-- THE ACCUMULATOR after position `n`, entry by entry: the partial sum over the column tiles `0 … n % 8`. -/
theorem accAt_apply (c : Dev nD) : ∀ (n : ℕ) (hn : n < cfg0.N) (p : Fin 1024) (u : Fin 1),
    accAt (F := Ideal) m c n hn (ix2 p u)
      = BlockedSum.partialSum hn8192 1024 (offDiag (V m c main_v11) (rowOf n (lt_of_lt_of_eq hn N_0) p)) (n % 8) := by
  intro n
  induction n with
  | zero =>
    intro hn p u
    show accStep (grid0.coords ⟨0, hn⟩) (iblk m c 0 ⟨0, hn⟩) (iblk m c 1 ⟨0, hn⟩) (k0_pay1 (F := Ideal)) (ix2 p u) = _
    rw [accStep_apply _ (c2_iff ⟨0, hn⟩), if_pos ((c1_iff ⟨0, hn⟩).mpr rfl), zero_add, tile_sum m c ⟨0, hn⟩ p]
    exact (BlockedSum.partialSum_zero _ _ _).symm
  | succ n ih =>
    intro hn p u
    have hN : n + 1 < 64 := lt_of_lt_of_eq hn N_0
    show accStep (grid0.coords ⟨n + 1, hn⟩) (iblk m c 0 ⟨n + 1, hn⟩) (iblk m c 1 ⟨n + 1, hn⟩) (accAt m c n (Nat.lt_of_succ_lt hn)) (ix2 p u) = _
    rw [accStep_apply _ (c2_iff ⟨n + 1, hn⟩), tile_sum m c ⟨n + 1, hn⟩ p]
    by_cases h : (n + 1) % 8 = 0
    · rw [if_pos ((c1_iff ⟨n + 1, hn⟩).mpr h), zero_add]
      show BlockedSum.blockSum hn8192 1024 _ ((n + 1) % 8) = _
      rw [h]
      exact (BlockedSum.partialSum_zero _ _ _).symm
    · rw [if_neg (fun hc => h ((c1_iff ⟨n + 1, hn⟩).mp hc)), ih (Nat.lt_of_succ_lt hn) p u]
      have hr : rowOf n (by omega) p = rowOf (n + 1) hN p := Fin.ext (by show 1024 * (n / 8) + p.val = 1024 * ((n + 1) / 8) + p.val; omega)
      have hm : (n + 1) % 8 = n % 8 + 1 := by omega
      show BlockedSum.partialSum hn8192 1024 (offDiag (V m c main_v11) (rowOf n _ p)) (n % 8)
          + BlockedSum.blockSum hn8192 1024 (offDiag (V m c main_v11) (rowOf (n + 1) _ p)) ((n + 1) % 8) = _
      rw [hr, hm]
      exact (BlockedSum.partialSum_succ _ _ _ _).symm

/-! ## The output array after the run -/

/-- The denominators laid out as the output array `[8192, 1]`. -/
def denArr (R : S8192x128.Idx → EReal) : S8192x1.Idx → EReal := fun j => den R (⟨(j 0).val, (j 0).isLt⟩ : Fin 8192)

/-- An index of the output array is in point `t`'s block iff its row is in the block's range. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v12).slice (win0_2.rect t)).set ↔ _
  rw [View.set_slice_whole, Rect.mem_set_unit]
  exact Iff.rfl

/-- WHAT A WRITING POINT WRITES BACK is its block of the denominators. -/
theorem flushed2_eq (c : Dev nD) (t : Fin cfg0.N) (hf : (cfg0.win 2).flush t = true) :
    (dats (F := Ideal) m 0 c).flushed 2 t = ((cfg0.win 2).blk t).view.read (Elt Ideal) (denArr (V m c main_v11)) := by
  have h7 : t.val % 8 = 7 := (flush0_2 t).mp hf
  show (cfg0.win 2).cut (grid0.coords t) ((dats (F := Ideal) m 0 c).after 2 t) = _
  rw [after2]
  funext j
  obtain ⟨p, u, rfl⟩ : ∃ (p : Fin 1024) (u : Fin 1), j = ix2 p u := ⟨j 0, j 1, eq_ix2 j⟩
  show accAt (F := Ideal) m c t.val t.isLt (ix2 p u) = denArr (V m c main_v11) (((cfg0.win 2).blk t).view.emb (ix2 p u))
  rw [accAt_apply, h7, BlockedSum.partialSum_last hn8192 (show 8 * 1024 = 8192 from rfl) _ (show 7 + 1 = 8 from rfl)]
  obtain ⟨-, -, -, -, e0, e1⟩ := idx_facts t
  unfold denArr den
  refine congrArg (fun r => ∑ cc : Fin 8192, offDiag (V m c main_v11) r cc) (Fin.ext ?_)
  show 1024 * (t.val / 8) + p.val = win0_2.index t (0 : Fin 2) * 1024 + 1 * p.val
  omega

/-- THE OUTPUT ARRAY after the run: every row's denominator. -/
theorem final2 (c : Dev nD) : (dats (F := Ideal) m 0 c).arrAt 2 cfg0.N = denArr (V m c main_v11) := by
  refine (dats (F := Ideal) m 0 c).arrAt_eq_of_cover 2 _ (fun t hf => flushed2_eq m c t hf) fun i => ?_
  have hi0 : (i 0).val < 8192 := (i 0).isLt
  have hi1 : (i 1).val < 1 := (i 1).isLt
  have hN : cfg0.N = 64 := N_0
  refine ⟨⟨8 * ((i 0).val / 1024) + 7, by omega⟩, (flush0_2 _).mpr (by show (8 * ((i 0).val / 1024) + 7) % 8 = 7; omega), ?_⟩
  rw [mem_blk2]
  obtain ⟨-, -, -, -, e0, e1⟩ := idx_facts ⟨8 * ((i 0).val / 1024) + 7, by omega⟩
  intro a
  match a with
  | ⟨0, _⟩ => show win0_2.index _ (0 : Fin 2) * 1024 ≤ (i 0).val ∧ (i 0).val < win0_2.index _ (0 : Fin 2) * 1024 + 1024
              rw [e0]; show (8 * ((i 0).val / 1024) + 7) / 8 * 1024 ≤ _ ∧ _ < (8 * ((i 0).val / 1024) + 7) / 8 * 1024 + 1024; omega
  | ⟨1, _⟩ => show win0_2.index _ (1 : Fin 2) * 1 ≤ (i 1).val ∧ (i 1).val < win0_2.index _ (1 : Fin 2) * 1 + 1
              rw [e1]; omega

end Cert.KernelIdeal.Val

end
-- ==== Proof.RefVal.lean ====
import proofs.«103674_j78288663871843_2_alg».proof.Proof.Gen.ReferenceIdeal.Read
import proofs.«103674_j78288663871843_2_alg».proof.Proof.Gen.ReferenceIdeal.Run
import Idealize.ShloMosaic.Lib.IdealHost
import Idealize.ShloMosaic.Lib.WordArith
import proofs.«103674_j78288663871843_2_alg».proof.Proof.LibWordOrder
import proofs.«103674_j78288663871843_2_alg».proof.Proof.SimSpec
import Idealize.ShloMosaic.Lib.ValueIdx
import Idealize.ShloMosaic.Lib.Pipeline.Value
import Idealize.ShloMosaic.PureOps.Ideal.Laws

noncomputable section

open scoped BigOperators

/-! # The reference, read entry by entry

With `R` the 8192 unit rows (the two normalised inputs joined), the reference forms the 8192 × 8192 matrix of the rows'
dot products, reads its two off-diagonals at distance 4096 for the numerators, and sums `exp` of each row off the main
diagonal for the denominators. -/

namespace Cert.RefVal

open Cert.ReferenceIdeal Cert.ReferenceIdeal.Gen Cert.ReferenceIdeal.Read
open Idealize.ShloMosaic Idealize.ShloMosaic.ValueIdx

/-! ## A gather of single entries of a matrix through a list of (row, column) pairs -/

section Pair
variable {α : Type}

/-- The dimension numbers of `x[rows, cols]` for a matrix `[N, M]` and `K` index pairs `[K, 2]`. -/
abbrev pairDims (N M K : Nat) (wf : GatherDims.WF ⟨2, ![N, M]⟩ ⟨2, ![K, 2]⟩ ⟨1, ![K]⟩ [] [0, 1] [] [0, 1] [] 1 ![1, 1]) :
    GatherDims ⟨2, ![N, M]⟩ ⟨2, ![K, 2]⟩ ⟨1, ![K]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `k`: the matrix at the pair `idx[k]`, each component read signed and clamped into its axis. -/
theorem gather_pair_apply {N M K w : Nat} (hN : 0 < N) (hM : 0 < M)
    (wf : GatherDims.WF ⟨2, ![N, M]⟩ ⟨2, ![K, 2]⟩ ⟨1, ![K]⟩ [] [0, 1] [] [0, 1] [] 1 ![1, 1])
    (x : (⟨2, ![N, M]⟩ : Shape).Idx → α) (idx : IVec ⟨2, ![K, 2]⟩ w) (k : Fin K) :
    Host.gather (pairDims N M K wf) x idx (ix1 k)
      = x (ix2 ⟨min (idx (ix2 k (0 : Fin 2))).toInt.toNat (N - 1), by omega⟩ ⟨min (idx (ix2 k (1 : Fin 2))).toInt.toNat (M - 1), by omega⟩) := by
  unfold Host.gather
  congr 1
  funext a
  refine Fin.ext ?_
  show (pairDims N M K wf).start (ix1 k) idx a + (pairDims N M K wf).batchCoord (ix1 k) a + (pairDims N M K wf).offCoord (ix1 k) a = _
  rw [GatherDims.batchCoord_eq_zero _ _ _ List.not_mem_nil]
  have h0 : (0 : Fin 2) ∈ (pairDims N M K wf).startIndexMap := by simp
  have h1 : (1 : Fin 2) ∈ (pairDims N M K wf).startIndexMap := by simp
  have hc0 : (0 : Fin 2) ∈ (pairDims N M K wf).collapsedSliceDims := by simp
  have hc1 : (1 : Fin 2) ∈ (pairDims N M K wf).collapsedSliceDims := by simp
  obtain rfl | rfl : a = (0 : Fin 2) ∨ a = (1 : Fin 2) := by
    rcases a with ⟨n, hn⟩
    have hn' : n < 2 := hn
    rcases Nat.lt_or_ge n 1 with h | h
    · left; exact Fin.ext (by show n = 0; omega)
    · right; exact Fin.ext (by show n = 1; omega)
  · rw [GatherDims.offCoord_eq_zero _ _ _ (fun h => ((GatherDims.mem_sKept _ _).mp h).1 hc0)]
    simp only [Nat.add_zero]
    unfold GatherDims.start
    rw [dif_pos h0]
    have hsi : (pairDims N M K wf).siIdx (ix1 k) ⟨List.idxOf (0 : Fin 2) (pairDims N M K wf).startIndexMap,
        List.idxOf_lt_length_iff.2 h0⟩ = ix2 k (0 : Fin 2) := by
      funext b; refine Fin.ext ?_
      match b with
      | ⟨0, _⟩ => rfl
      | ⟨1, _⟩ => rfl
    rw [hsi]
    rfl
  · rw [GatherDims.offCoord_eq_zero _ _ _ (fun h => ((GatherDims.mem_sKept _ _).mp h).1 hc1)]
    simp only [Nat.add_zero]
    unfold GatherDims.start
    rw [dif_pos h1]
    have hsi : (pairDims N M K wf).siIdx (ix1 k) ⟨List.idxOf (1 : Fin 2) (pairDims N M K wf).startIndexMap,
        List.idxOf_lt_length_iff.2 h1⟩ = ix2 k (1 : Fin 2) := by
      funext b; refine Fin.ext ?_
      match b with
      | ⟨0, _⟩ => rfl
      | ⟨1, _⟩ => rfl
    rw [hsi]
    rfl

end Pair

/-! ## The similarity matrix, the denominators and the numerators of the reference -/

variable (x0 x1 : (⟨S4096x128, .f32⟩ : BufTy).Contents (Elt Ideal))

/-- Dividing by one changes nothing, at the infinities too. -/
theorem div_one' (x : EReal) : Ideal.div x 1 = x := by
  have h := Ideal.div_coe (y := 1) one_ne_zero x
  simpa using h

/-- Entry (r, c) of the similarity matrix: the dot product of rows r and c. -/
theorem sim_apply (r cc : Fin 8192) :
    val_main_v12 (F := Ideal) x0 x1 (ix2 r cc)
      = ∑ d : Fin 128, val_main_v10 (F := Ideal) x0 x1 (ix2 r d) * val_main_v10 (F := Ideal) x0 x1 (ix2 cc d) := by
  rw [val_main_v12_apply]
  refine Finset.sum_congr rfl fun d _ => ?_
  rw [val_main_v11_apply]
  have e1 : lidx_main_v12 (ix2 r cc) d = ix2 r d := funext fun a => Fin.ext (by match a with | ⟨0, _⟩ => rfl | ⟨1, _⟩ => rfl)
  have e2 : idx_main_v11 (ridx_main_v12 (ix2 r cc) d) = ix2 cc d := funext fun a => Fin.ext (by match a with | ⟨0, _⟩ => rfl | ⟨1, _⟩ => rfl)
  rw [e1, e2]

/-- The mask entry: one minus the indicator of the diagonal, as the reference computes it from two iotas. -/
theorem mask_apply (r cc : Fin 8192) (e : EReal) :
    (Ideal.ofBits .f32 0x3F800000#32 - FloatOps.uitofp (F := Ideal) .f32 (IntOp.cmpi .eq (IntOp.addi (BitVec.ofNat 32 r.val) 0#32) (BitVec.ofNat 32 cc.val))) * e
      = if r = cc then 0 else e := by
  have hadd : IntOp.addi (BitVec.ofNat 32 r.val) 0#32 = BitVec.ofNat 32 r.val := by simp [IntOp.addi]
  rw [hadd, Ideal.ofBits_one_f32]
  by_cases h : r = cc
  · subst h
    have : IntOp.cmpi .eq (BitVec.ofNat 32 r.val) (BitVec.ofNat 32 r.val) = 1#1 := by simp [IntOp.cmpi]
    rw [this, if_pos rfl]
    show ((1 : EReal) - (((1#1 : BitVec 1).toNat : ℝ) : EReal)) * e = 0
    have : (((1#1 : BitVec 1).toNat : ℝ) : EReal) = 1 := by norm_num
    rw [this, show ((1 : EReal) - 1) = 0 from by rw [← EReal.coe_one, ← EReal.coe_sub, sub_self, EReal.coe_zero], zero_mul]
  · have hne : BitVec.ofNat 32 r.val ≠ BitVec.ofNat 32 cc.val := fun e' => h (Fin.ext (by
      have := congrArg BitVec.toNat e'
      simp only [BitVec.toNat_ofNat] at this
      have hr := r.isLt
      have hc := cc.isLt
      omega))
    have : IntOp.cmpi .eq (BitVec.ofNat 32 r.val) (BitVec.ofNat 32 cc.val) = 0#1 := by
      show BitVec.ofBool (BitVec.ofNat 32 r.val == BitVec.ofNat 32 cc.val) = 0#1
      rw [show (BitVec.ofNat 32 r.val == BitVec.ofNat 32 cc.val) = false from beq_eq_false_iff_ne.mpr hne]; rfl
    rw [this, if_neg h]
    show ((1 : EReal) - (((0#1 : BitVec 1).toNat : ℝ) : EReal)) * e = e
    have : (((0#1 : BitVec 1).toNat : ℝ) : EReal) = 0 := by norm_num
    rw [this, sub_zero, one_mul]

/-- THE DENOMINATOR of row r: the sum over the columns of `exp` of the dot products, the diagonal term left out. -/
theorem den_apply (r : Fin 8192) :
    val_main_v31 (F := Ideal) x0 x1 (ix1 r) = Cert.SimSpec.den (val_main_v10 (F := Ideal) x0 x1) r := by
  unfold Cert.SimSpec.den Cert.SimSpec.offDiag
  rw [val_main_v31_apply, val_main_cst_4_apply, Ideal.ofBits_def, Ideal.ofBits_zero_f32, zero_add]
  refine Finset.sum_congr rfl fun cc _ => ?_
  have e : idx_main_v31 (ix1 r) cc = ix2 r cc := funext fun a => Fin.ext (by match a with | ⟨0, _⟩ => rfl | ⟨1, _⟩ => rfl)
  rw [e, val_main_v30_apply, val_main_v29_apply, val_main_v28_apply, sim_apply, val_main_v26_apply, val_main_v25_apply,
    val_main_cst_2_apply, val_main_v24_apply, val_main_v23_apply, val_main_v22_apply, val_main_v19_apply, val_main_v20_apply,
    val_main_v21_apply, val_main_c_apply, val_main_v27_apply, val_main_cst_3_apply]
  simp only [Ideal.mulf_def, Ideal.hostUnary_exp_def, Ideal.hostDivf_def, Ideal.subf_def, Ideal.ofBits_def]
  rw [Ideal.ofBits_one_f32, div_one', ← Ideal.ofBits_one_f32]
  exact mask_apply r cc _

/-! ## The numerators: the two off-diagonals at distance 4096 -/

/-- A small nonnegative word is not below zero, so the wrap-around of a negative index leaves it alone. -/
theorem wrap_small (a : ℕ) (ha : a < 2 ^ 31) (alt : BitVec 32) :
    Scalar.select (IntOp.cmpi .slt (BitVec.ofNat 32 a) 0#32) alt (BitVec.ofNat 32 a) = BitVec.ofNat 32 a := by
  have h := Cert.WordOrder.slt_ofNat a 0 ha (by norm_num)
  rw [show (0#32 : BitVec 32) = BitVec.ofNat 32 0 from rfl, h, show decide (a < 0) = false from by simp]
  exact ValueIdx.select_zero _ _

/-- Read signed and clamped into an axis of 8192, the word of a number below 8192 is that number. -/
theorem clamp_small (a : ℕ) (ha : a < 8192) : min (BitVec.ofNat 32 a).toInt.toNat (8192 - 1) = a := by
  rw [WordArith.toInt_ofNat_small a (by omega), Int.toNat_natCast]; omega

theorem idx2_0 (k : Fin 4096) : val_main_call2_v16 (F := Ideal) (ix2 k (0 : Fin 2)) = BitVec.ofNat 32 k.val := by
  unfold val_main_call2_v16
  rw [concatenate_pair_apply_left (t := S4096x2) (s₁ := S4096x1) (s₂ := S4096x1) (1 : Fin S4096x2.rank) _ _ _ (ix2 k (0 : Fin 2)) rfl (ix2 k (0 : Fin 1))
    (fun b => by match b with | ⟨0, _⟩ => rfl | ⟨1, _⟩ => rfl)]
  rw [val_main_call2_v14_apply, val_main_call2_v8_apply, val_main_call2_v5_apply, val_main_call2_v0_apply,
    val_main_call2_v4_apply, val_main_call2_c_0_apply]
  exact wrap_small k.val (by have := k.isLt; omega) _

theorem idx2_1 (k : Fin 4096) : val_main_call2_v16 (F := Ideal) (ix2 k (1 : Fin 2)) = BitVec.ofNat 32 (4096 + k.val) := by
  unfold val_main_call2_v16
  rw [concatenate_pair_apply_right (t := S4096x2) (s₁ := S4096x1) (s₂ := S4096x1) (1 : Fin S4096x2.rank) _ _ _ (ix2 k (1 : Fin 2)) rfl rfl (ix2 k (0 : Fin 1))
    (fun b hb => by match b with | ⟨0, _⟩ => rfl | ⟨1, _⟩ => exact absurd rfl hb) rfl]
  rw [val_main_call2_v15_apply, val_main_call2_v13_apply, val_main_call2_v10_apply, val_main_call2_v3_apply,
    val_main_call2_v2_apply, val_main_call2_c_apply, val_main_call2_v1_apply, val_main_call2_v9_apply, val_main_call2_c_2_apply]
  rw [show (4096#32 : BitVec 32) = BitVec.ofNat 32 4096 from rfl, Cert.WordOrder.addi_ofNat]
  exact wrap_small _ (by have := k.isLt; show 4096 + k.val < 2 ^ 31; omega) _

theorem idx3_0 (k : Fin 4096) : val_main_call3_v16 (F := Ideal) (ix2 k (0 : Fin 2)) = BitVec.ofNat 32 (4096 + k.val) := by
  unfold val_main_call3_v16
  rw [concatenate_pair_apply_left (t := S4096x2) (s₁ := S4096x1) (s₂ := S4096x1) (1 : Fin S4096x2.rank) _ _ _ (ix2 k (0 : Fin 2)) rfl (ix2 k (0 : Fin 1))
    (fun b => by match b with | ⟨0, _⟩ => rfl | ⟨1, _⟩ => rfl)]
  rw [val_main_call3_v14_apply, val_main_call3_v8_apply, val_main_call3_v5_apply, val_main_call3_v3_apply,
    val_main_call3_v2_apply, val_main_call3_c_apply, val_main_call3_v1_apply, val_main_call3_v4_apply, val_main_call3_c_0_apply]
  rw [show (4096#32 : BitVec 32) = BitVec.ofNat 32 4096 from rfl, Cert.WordOrder.addi_ofNat]
  exact wrap_small _ (by have := k.isLt; show 4096 + k.val < 2 ^ 31; omega) _

theorem idx3_1 (k : Fin 4096) : val_main_call3_v16 (F := Ideal) (ix2 k (1 : Fin 2)) = BitVec.ofNat 32 k.val := by
  unfold val_main_call3_v16
  rw [concatenate_pair_apply_right (t := S4096x2) (s₁ := S4096x1) (s₂ := S4096x1) (1 : Fin S4096x2.rank) _ _ _ (ix2 k (1 : Fin 2)) rfl rfl (ix2 k (0 : Fin 1))
    (fun b hb => by match b with | ⟨0, _⟩ => rfl | ⟨1, _⟩ => exact absurd rfl hb) rfl]
  rw [val_main_call3_v15_apply, val_main_call3_v13_apply, val_main_call3_v10_apply, val_main_call3_v0_apply,
    val_main_call3_v9_apply, val_main_call3_c_2_apply]
  exact wrap_small k.val (by have := k.isLt; omega) _

/-- The first off-diagonal: entry (k, 4096 + k) of the similarity matrix. -/
theorem upper_apply (k : Fin 4096) :
    val_main_v13 (F := Ideal) x0 x1 (ix1 k)
      = val_main_v12 (F := Ideal) x0 x1 (ix2 (⟨k.val, by have := k.isLt; omega⟩ : Fin 8192) (⟨4096 + k.val, by have := k.isLt; omega⟩ : Fin 8192)) := by
  unfold val_main_v13
  refine (gather_pair_apply (N := 8192) (M := 8192) (K := 4096) (by norm_num) (by norm_num) _ _ _ k).trans ?_
  refine congrArg _ (funext fun a => Fin.ext ?_)
  match a with
  | ⟨0, _⟩ => show min (val_main_call2_v16 (F := Ideal) (ix2 k (0 : Fin 2))).toInt.toNat (8192 - 1) = k.val
              rw [idx2_0]; exact clamp_small _ (by have := k.isLt; omega)
  | ⟨1, _⟩ => show min (val_main_call2_v16 (F := Ideal) (ix2 k (1 : Fin 2))).toInt.toNat (8192 - 1) = 4096 + k.val
              rw [idx2_1]; exact clamp_small _ (by have := k.isLt; omega)

/-- The second off-diagonal: entry (4096 + k, k). -/
theorem lower_apply (k : Fin 4096) :
    val_main_v14 (F := Ideal) x0 x1 (ix1 k)
      = val_main_v12 (F := Ideal) x0 x1 (ix2 (⟨4096 + k.val, by have := k.isLt; omega⟩ : Fin 8192) (⟨k.val, by have := k.isLt; omega⟩ : Fin 8192)) := by
  unfold val_main_v14
  refine (gather_pair_apply (N := 8192) (M := 8192) (K := 4096) (by norm_num) (by norm_num) _ _ _ k).trans ?_
  refine congrArg _ (funext fun a => Fin.ext ?_)
  match a with
  | ⟨0, _⟩ => show min (val_main_call3_v16 (F := Ideal) (ix2 k (0 : Fin 2))).toInt.toNat (8192 - 1) = 4096 + k.val
              rw [idx3_0]; exact clamp_small _ (by have := k.isLt; omega)
  | ⟨1, _⟩ => show min (val_main_call3_v16 (F := Ideal) (ix2 k (1 : Fin 2))).toInt.toNat (8192 - 1) = k.val
              rw [idx3_1]; exact clamp_small _ (by have := k.isLt; omega)

end Cert.RefVal

end
-- ==== Proof.RefNum.lean ====
import proofs.«103674_j78288663871843_2_alg».proof.Proof.RefVal

noncomputable section

open scoped BigOperators

/-! # The reference's numerators

Rows `k` and `4096 + k` of the unit rows are row `k` of the first and of the second normalised input; entry
`(k, 4096 + k)` of the similarity matrix, and entry `(4096 + k, k)`, are both the dot product of those two rows. -/

namespace Cert.RefVal

open Cert.ReferenceIdeal Cert.ReferenceIdeal.Gen Cert.ReferenceIdeal.Read
open Idealize.ShloMosaic Idealize.ShloMosaic.ValueIdx

variable (x0 x1 : (⟨S4096x128, .f32⟩ : BufTy).Contents (Elt Ideal))

abbrev lo (k : Fin 4096) : Fin 8192 := ⟨k.val, by have := k.isLt; omega⟩
abbrev hi (k : Fin 4096) : Fin 8192 := ⟨4096 + k.val, by have := k.isLt; omega⟩

/-- The first 4096 unit rows are the first normalised input's; -/
theorem rows_lo (k : Fin 4096) (d : Fin 128) :
    val_main_v10 (F := Ideal) x0 x1 (ix2 (lo k) d) = val_main_v4 (F := Ideal) x1 (ix2 k d) := by
  unfold val_main_v10
  exact concatenate_pair_apply_left (t := S8192x128) (s₁ := S4096x128) (s₂ := S4096x128) (0 : Fin S8192x128.rank) _ _ _
    (ix2 (lo k) d) rfl (ix2 k d) (fun b => by match b with | ⟨0, _⟩ => rfl | ⟨1, _⟩ => rfl)

/-- the last 4096 the second's. -/
theorem rows_hi (k : Fin 4096) (d : Fin 128) :
    val_main_v10 (F := Ideal) x0 x1 (ix2 (hi k) d) = val_main_v9 (F := Ideal) x0 (ix2 k d) := by
  unfold val_main_v10
  exact concatenate_pair_apply_right (t := S8192x128) (s₁ := S4096x128) (s₂ := S4096x128) (0 : Fin S8192x128.rank) _ _ _
    (ix2 (hi k) d) rfl rfl (ix2 k d) (fun b hb => by match b with | ⟨0, _⟩ => exact absurd rfl hb | ⟨1, _⟩ => rfl)
    (by show k.val + 4096 = 4096 + k.val; omega)

/-- The pair's dot product. -/
def pairDot (k : Fin 4096) : EReal := ∑ d : Fin 128, val_main_v4 (F := Ideal) x1 (ix2 k d) * val_main_v9 (F := Ideal) x0 (ix2 k d)

theorem num_lo (k : Fin 4096) : val_main_v18 (F := Ideal) x0 x1 (ix1 (lo k)) = Ideal.exp (pairDot x0 x1 k) := by
  rw [val_main_v18_apply, val_main_v17_apply, val_main_v16_apply, val_main_cst_1_apply]
  simp only [Ideal.hostUnary_exp_def, Ideal.hostDivf_def, Ideal.ofBits_def]
  rw [Ideal.ofBits_one_f32, div_one']
  refine congrArg Ideal.exp ?_
  unfold val_main_v15
  rw [concatenate_pair_apply_left (t := S8192) (s₁ := S4096) (s₂ := S4096) (0 : Fin S8192.rank) _ _ _ (ix1 (lo k)) rfl (ix1 k)
    (fun b => by match b with | ⟨0, _⟩ => rfl)]
  rw [upper_apply]
  show val_main_v12 (F := Ideal) x0 x1 (ix2 (lo k) (hi k)) = _
  rw [sim_apply]
  exact Finset.sum_congr rfl fun d _ => by rw [rows_lo, rows_hi]

theorem num_hi (k : Fin 4096) : val_main_v18 (F := Ideal) x0 x1 (ix1 (hi k)) = Ideal.exp (pairDot x0 x1 k) := by
  rw [val_main_v18_apply, val_main_v17_apply, val_main_v16_apply, val_main_cst_1_apply]
  simp only [Ideal.hostUnary_exp_def, Ideal.hostDivf_def, Ideal.ofBits_def]
  rw [Ideal.ofBits_one_f32, div_one']
  refine congrArg Ideal.exp ?_
  unfold val_main_v15
  rw [concatenate_pair_apply_right (t := S8192) (s₁ := S4096) (s₂ := S4096) (0 : Fin S8192.rank) _ _ _ (ix1 (hi k)) rfl rfl (ix1 k)
    (fun b hb => by match b with | ⟨0, _⟩ => exact absurd rfl hb) (by show k.val + 4096 = 4096 + k.val; omega)]
  rw [lower_apply]
  show val_main_v12 (F := Ideal) x0 x1 (ix2 (hi k) (lo k)) = _
  rw [sim_apply]
  exact Finset.sum_congr rfl fun d _ => by rw [rows_lo, rows_hi, mul_comm]

end Cert.RefVal

end
-- ==== Proof.Bridge.lean ====
import proofs.«103674_j78288663871843_2_alg».proof.Proof.KIRun
import proofs.«103674_j78288663871843_2_alg».proof.Proof.KIAcc
import proofs.«103674_j78288663871843_2_alg».proof.Proof.RefNum
import Idealize.ShloMosaic.Lib.StableHlo.Run

set_option maxRecDepth 16384

noncomputable section

open scoped BigOperators

/-! # The kernel's result is the reference's

Both programs normalise the rows of the two inputs in the same way.  The kernel's last stretch computes, from the two
normalised inputs `a`, `b` and the denominators `D` the region wrote back, the mean over the 8192 rows of
`−log (exp (a_k · b_k) / D_r)`; the reference computes the same mean from its own numerators and denominators.  Row by
row the numerators agree (the dot product of rows `k` and `4096 + k` of the joined rows is `a_k · b_k`, in either order
of the factors) and the denominators agree (the region's block-by-block sums are the reference's row sums). -/

namespace Cert.Bridge

open Cert.KernelIdeal Cert.KernelIdeal.Gen Cert.KernelIdeal.Hand Cert.KernelIdeal.Val Cert.SimSpec
open Idealize.ShloMosaic Idealize.ShloMosaic.TcCoe Idealize.ShloMosaic.StableHlo Idealize.SL.Sem Idealize.ShloMosaic.ValueIdx
open Cert.ReferenceIdeal.Read (val_main_v4 val_main_v9 val_main_v10 val_main_v18 val_main_v31 val_main_v32 val_main_v33 val_main_v34
  val_main_v35 val_main_v36 val_main_cst_5 val_main_cst_6)

/-! ## The kernel's host stretches as functions -/

/-- `exp` of the rows' dot products, one per row pair. -/
def eOf (a b : FVec Ideal S4096x128 .f32) : FVec Ideal S4096 .f32 :=
  Host.exp (Host.divf (Host.reduceAdd (mulf a b) (constant S_ .f32 0x00000000#32) reducesTo_S4096x128_S4096_d1 h_S_)
    (broadcastInDim S4096 ![] bcast_S_S4096 (constant S_ .f32 0x3F800000#32)))

/-- The numerators: the pairs' values twice over. -/
def numOf (a b : FVec Ideal S4096x128 .f32) : FVec Ideal S8192 .f32 :=
  concatenate S8192 0 [⟨S4096, eOf a b⟩, ⟨S4096, eOf a b⟩] concatenates_S4096_S4096_S8192_d0

/-- The mean of `−log (numerator / denominator)` over the rows. -/
def lossOf (N D : FVec Ideal S8192 .f32) : FVec Ideal S_ .f32 :=
  Host.divf (Host.reduceAdd (Host.negf (Host.log (Host.divf N D))) (constant S_ .f32 0x00000000#32) reducesTo_S8192_S_d0 h_S_)
    (constant S_ .f32 0x46000000#32)

/-- The last stretch, from any contents of the buffers it reads. -/
theorem tail_v24 (W : Valuation τ sig (Elt Ideal)) :
    (StableHlo.after (hostOps1 (F := Ideal)) W (Proc.devRef .tc main_v24) : FVec Ideal S_ .f32)
      = lossOf (numOf (W (Proc.devRef .tc main_v4)) (W (Proc.devRef .tc main_v9)))
          (shapeCast S8192 (W (Proc.devRef .tc main_v12) : FVec Ideal S8192x1 .f32) shapeCasts_S8192x1_S8192) := by
  after_results
  rfl

/-- The stretches before the region, from any launch contents: the normalised inputs and the joined rows are the
    reference's own terms. -/
theorem pre_v4 (W0 : Valuation τ sig (Elt Ideal)) :
    (StableHlo.after (hostOps0_3 (F := Ideal)) (StableHlo.after hostOps0_2 (StableHlo.after hostOps0_1 (StableHlo.after hostOps0 W0)))
        (Proc.devRef .tc main_v4) : FVec Ideal S4096x128 .f32)
      = val_main_v4 (F := Ideal) (W0 (Proc.devRef .tc main_arg1)) := by
  after_results
  rfl

theorem pre_v9 (W0 : Valuation τ sig (Elt Ideal)) :
    (StableHlo.after (hostOps0_3 (F := Ideal)) (StableHlo.after hostOps0_2 (StableHlo.after hostOps0_1 (StableHlo.after hostOps0 W0)))
        (Proc.devRef .tc main_v9) : FVec Ideal S4096x128 .f32)
      = val_main_v9 (F := Ideal) (W0 (Proc.devRef .tc main_arg0)) := by
  after_results
  rfl

theorem pre_v11 (W0 : Valuation τ sig (Elt Ideal)) :
    (StableHlo.after (hostOps0_3 (F := Ideal)) (StableHlo.after hostOps0_2 (StableHlo.after hostOps0_1 (StableHlo.after hostOps0 W0)))
        (Proc.devRef .tc main_v11) : S8192x128.Idx → EReal)
      = val_main_v10 (F := Ideal) (W0 (Proc.devRef .tc main_arg0)) (W0 (Proc.devRef .tc main_arg1)) := by
  after_results
  rfl

/-! ## Row by row -/

/-- One pair's value: `exp` of the dot product of the pair's rows. -/
theorem eOf_apply (a b : FVec Ideal S4096x128 .f32) (k : Fin 4096) :
    eOf a b (ix1 k) = Ideal.exp (∑ d : Fin 128, a (ix2 k d) * b (ix2 k d)) := by
  unfold eOf
  have h1 : broadcastInDim S4096 ![] bcast_S_S4096 (constant (F := Ideal) S_ .f32 0x3F800000#32) (ix1 k) = 1 := by
    rw [broadcastInDim_apply _ bcast_S_S4096 _ (ix1 k) ix0 (fun a => a.elim0)]
    exact Ideal.ofBits_one_f32
  have h2 : Host.reduceAdd (F := Ideal) (mulf a b) (constant S_ .f32 0x00000000#32) reducesTo_S4096x128_S4096_d1 h_S_ (ix1 k)
      = ∑ d : Fin 128, a (ix2 k d) * b (ix2 k d) := by
    simp only [Host.reduceAdd, Ideal.hostReduceAdd_def]
    rw [Ideal.hostReduceAdd_single reducesTo_S4096x128_S4096_d1 (by decide)]
    show Ideal.ofBits .f32 0x00000000#32 + _ = _
    rw [Ideal.ofBits_zero_f32, zero_add]
    exact Finset.sum_congr rfl fun d _ => congrArg (mulf a b) (funext fun x => Fin.ext (by match x with | ⟨0, _⟩ => rfl | ⟨1, _⟩ => rfl))
  show Ideal.exp (Ideal.div (Host.reduceAdd (F := Ideal) (mulf a b) (constant S_ .f32 0x00000000#32) reducesTo_S4096x128_S4096_d1 h_S_ (ix1 k))
      (broadcastInDim S4096 ![] bcast_S_S4096 (constant (F := Ideal) S_ .f32 0x3F800000#32) (ix1 k))) = _
  rw [h1, h2, Cert.RefVal.div_one']

variable (x0 x1 : FVec Ideal S4096x128 .f32)

/-- THE NUMERATORS agree. -/
theorem num_eq : numOf (val_main_v4 (F := Ideal) x1) (val_main_v9 (F := Ideal) x0) = val_main_v18 (F := Ideal) x0 x1 := by
  funext r
  obtain ⟨r0, rfl⟩ : ∃ r0 : Fin 8192, r = ix1 r0 := ⟨r 0, eq_ix1 r⟩
  unfold numOf
  by_cases h : r0.val < 4096
  · obtain ⟨k, hr⟩ : ∃ k : Fin 4096, r0 = Cert.RefVal.lo k := ⟨⟨r0.val, h⟩, Fin.ext rfl⟩
    rw [hr, Cert.RefVal.num_lo]
    rw [concatenate_pair_apply_left (t := S8192) (s₁ := S4096) (s₂ := S4096) (0 : Fin S8192.rank) _ _ _ (ix1 (Cert.RefVal.lo k)) rfl
      (ix1 k) (fun b => by match b with | ⟨0, _⟩ => rfl)]
    exact eOf_apply _ _ _
  · obtain ⟨k, hr⟩ : ∃ k : Fin 4096, r0 = Cert.RefVal.hi k :=
      ⟨⟨r0.val - 4096, by have := r0.isLt; omega⟩, Fin.ext (by show r0.val = 4096 + (r0.val - 4096); omega)⟩
    rw [hr, Cert.RefVal.num_hi]
    rw [concatenate_pair_apply_right (t := S8192) (s₁ := S4096) (s₂ := S4096) (0 : Fin S8192.rank) _ _ _ (ix1 (Cert.RefVal.hi k)) rfl rfl
      (ix1 k) (fun b hb => by match b with | ⟨0, _⟩ => exact absurd rfl hb)
      (by show k.val + 4096 = 4096 + k.val; omega)]
    exact eOf_apply _ _ _

/-- THE DENOMINATORS agree: the region's output, read as a vector, is the reference's row sums. -/
theorem den_eq : shapeCast S8192 (denArr (val_main_v10 (F := Ideal) x0 x1) : FVec Ideal S8192x1 .f32) shapeCasts_S8192x1_S8192
    = val_main_v31 (F := Ideal) x0 x1 := by
  funext r
  obtain ⟨r0, rfl⟩ : ∃ r0 : Fin 8192, r = ix1 r0 := ⟨r 0, eq_ix1 r⟩
  rw [shapeCast_apply _ shapeCasts_S8192x1_S8192 (ix1 r0) (ix2 r0 (0 : Fin 1)) (by
    rw [Shape.rowMajor_val_two, Shape.rowMajor_val_one]; show r0.val * 1 + 0 = r0.val; omega)]
  rw [Cert.RefVal.den_apply]
  rfl

/-- THE RESULTS agree. -/
theorem loss_eq : lossOf (numOf (val_main_v4 (F := Ideal) x1) (val_main_v9 (F := Ideal) x0))
      (shapeCast S8192 (denArr (val_main_v10 (F := Ideal) x0 x1) : FVec Ideal S8192x1 .f32) shapeCasts_S8192x1_S8192)
    = val_main_v36 (F := Ideal) x0 x1 := by
  rw [num_eq, den_eq]
  rfl

/-- What the kernel's run leaves in its result buffer is the reference's result of the same inputs. -/
theorem result_eq (m : (ℓ : Loc nD τ sig) → Buf (Elt Ideal) ℓ) (c : Dev nD) :
    (V6 (F := Ideal) m c (Proc.devRef .tc main_v24) : FVec Ideal S_ .f32)
      = val_main_v36 (F := Ideal) (m ((c : Thread nD τ).loc main_arg0)) (m ((c : Thread nD τ).loc main_arg1)) := by
  show StableHlo.after (hostOps1 (F := Ideal)) (V5 m c) (Proc.devRef .tc main_v24) = _
  rw [tail_v24, V5_of m c main_v4 (by decide), V5_of m c main_v9 (by decide), V5_out, final2]
  rw [show (V4 m c (Proc.devRef .tc main_v4) : FVec Ideal S4096x128 .f32) = _ from pre_v4 (V0 m c),
    show (V4 m c (Proc.devRef .tc main_v9) : FVec Ideal S4096x128 .f32) = _ from pre_v9 (V0 m c),
    show (V m c main_v11 : S8192x128.Idx → EReal) = _ from pre_v11 (V0 m c)]
  exact loss_eq _ _

end Cert.Bridge

end
-- ==== Proof.lean ====
/- The proof of `Cert.Claim`.

   The kernel computes, for 8192 unit rows (two inputs of 4096 rows each, every row divided by its norm floored at 1e-12,
   joined), each row's denominator — the sum over every OTHER row of `exp` of the two rows' dot product — tile by tile:
   the grid is 8 row tiles by 8 column tiles of 1024 rows; a point forms the 1024 × 1024 tile of `exp` of the dot
   products, replaces the entry on the diagonal by zero where the tile meets it, and adds the tile's row sums into an
   accumulator that it zeroes at the first column tile and writes out at the last.  The host then takes, per row pair,
   `exp` of the dot product of row k of one input with row k of the other, and returns the mean over all rows of
   `−log (numerator / denominator)`.  The reference forms the whole 8192 × 8192 matrix, reads the numerators off its two
   diagonals at distance 4096, multiplies `exp` of it by one minus the identity and sums the rows.

   On the extended reals the two are the same function: a sum taken in eight blocks is the sum; a diagonal entry
   chosen to be zero is the entry times `1 − 1`; multiplying by one and dividing by one change nothing; the entry
   (k, 4096 + k) of the matrix is the pair's dot product and the entry (4096 + k, k) is the same product with the
   factors exchanged.  None of these needs the entries to be finite, so the precondition is not opened.

   The frames: @main is five stretches of host operations around the one kernel region.  The region's two input
   windows read ONE array, each holding half of its share; the body's run at a grid point is proved once, by cases on
   its three independent conditions, for any contents of the accumulator. -/
import proofs.«103674_j78288663871843_2_alg».proof.Defs
import proofs.«103674_j78288663871843_2_alg».proof.Proof.Gen.Kernel
import proofs.«103674_j78288663871843_2_alg».proof.Proof.Gen.KernelIdeal
import proofs.«103674_j78288663871843_2_alg».proof.Proof.Gen.ReferenceIdeal
import proofs.«103674_j78288663871843_2_alg».proof.Proof.Gen.Pre_finite_inputs
import proofs.«103674_j78288663871843_2_alg».proof.Proof.Gen.ReferenceIdeal.Run
import proofs.«103674_j78288663871843_2_alg».proof.Proof.Gen.ReferenceIdeal.Read
import proofs.«103674_j78288663871843_2_alg».proof.Proof.KRun
import proofs.«103674_j78288663871843_2_alg».proof.Proof.KIRun
import proofs.«103674_j78288663871843_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end, nothing faulting, its argument arrays unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the inputs, the two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.V6 (F := Ideal) m c (Proc.devRef .tc Cert.KernelIdeal.main_v24), ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, (hagree c).1, (hagree c).2]
    exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
